-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v27)) (v2 : (c : Dev Cert.KernelIdeal.nD) → Buf (Elt Ideal) ((c.tc : Thread Cert.KernelIdeal.nD Cert.KernelIdeal.τ).loc Cert.KernelIdeal.main_v28)) (v3 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_v28) = v2 c
          ∧ r.2.mem ((c.tc : Thread Cert.KernelIdeal.nD Cert.KernelIdeal.τ).loc Cert.KernelIdeal.main_v51) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v40) = v2 c
          ∧ r.2.mem ((c.tc : Thread Cert.ReferenceIdeal.nD Cert.ReferenceIdeal.τ).loc Cert.ReferenceIdeal.main_v63) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2048 : Shape := ⟨3, ![2, 4096, 2048]⟩
abbrev S4096x32 : Shape := ⟨2, ![4096, 32]⟩
abbrev S2048x1536 : Shape := ⟨2, ![2048, 1536]⟩
abbrev S1536 : Shape := ⟨1, ![1536]⟩
abbrev S1536x3072 : Shape := ⟨2, ![1536, 3072]⟩
abbrev S2048x576 : Shape := ⟨2, ![2048, 576]⟩
abbrev S_ : Shape := ⟨0, ![]⟩

class Facts : Prop where
  bcast_S_S2x4096x2048 : S_.BroadcastsInDim S2x4096x2048 (![] : Fin 0 → Fin S2x4096x2048.rank)
  reducesTo_S2x4096x2048_S_d0_1_2 : S2x4096x2048.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S2048x1536 : S_.BroadcastsInDim S2048x1536 (![] : Fin 0 → Fin S2048x1536.rank)
  reducesTo_S2048x1536_S_d0_1 : S2048x1536.ReducesTo [0, 1] S_
  bcast_S_S1536 : S_.BroadcastsInDim S1536 (![] : Fin 0 → Fin S1536.rank)
  reducesTo_S1536_S_d0 : S1536.ReducesTo [0] S_
  bcast_S_S1536x3072 : S_.BroadcastsInDim S1536x3072 (![] : Fin 0 → Fin S1536x3072.rank)
  reducesTo_S1536x3072_S_d0_1 : S1536x3072.ReducesTo [0, 1] S_
  bcast_S_S2048x576 : S_.BroadcastsInDim S2048x576 (![] : Fin 0 → Fin S2048x576.rank)
  reducesTo_S2048x576_S_d0_1 : S2048x576.ReducesTo [0, 1] S_

variable [Facts]

def fn_part1 {F : FTy → Type} [FloatOps F] (main_arg4 : FVec F S1536 .f32) (main_arg5 : FVec F S1536x3072 .f32) (main_arg6 : FVec F S2048x576 .f32) (main_v13 : IVec S_ 1) (main_v16 : IVec S2048x1536 1) : IVec S_ 1 :=
  let main_c_5 : IVec S_ 1 := constantI S_ 1 1#1
  let main_v17 : IVec S_ 1 := (fun x v => Host.reduce IntOp.andi x v reducesTo_S2048x1536_S_d0_1 h_S_) main_v16 main_c_5
  let main_v18 : IVec S_ 1 := andi main_v13 main_v17
  let main_v19 : FVec F S1536 .f32 := Host.absf main_arg4
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536x3072 .f32 := Host.absf main_arg5
  let main_cst_8 : FVec F S_ .f32 := constant S_ .f32 0x7F800000#32
  let main_v25 : FVec F S1536x3072 .f32 := broadcastInDim S1536x3072 ![] bcast_S_S1536x3072 main_cst_8
  let main_v26 : IVec S1536x3072 1 := cmpf .olt main_v24 main_v25
  let main_c_9 : IVec S_ 1 := constantI S_ 1 1#1
  let main_v27 : IVec S_ 1 := (fun x v => Host.reduce IntOp.andi x v reducesTo_S1536x3072_S_d0_1 h_S_) main_v26 main_c_9
  let main_v28 : IVec S_ 1 := andi main_v23 main_v27
  let main_v29 : FVec F S2048x576 .f32 := Host.absf main_arg6
  let main_cst_10 : FVec F S_ .f32 := constant S_ .f32 0x7F800000#32
  let main_v30 : FVec F S2048x576 .f32 := broadcastInDim S2048x576 ![] bcast_S_S2048x576 main_cst_10
  let main_v31 : IVec S2048x576 1 := cmpf .olt main_v29 main_v30
  let main_c_11 : IVec S_ 1 := constantI S_ 1 1#1
  let main_v32 : IVec S_ 1 := (fun x v => Host.reduce IntOp.andi x v reducesTo_S2048x576_S_d0_1 h_S_) main_v31 main_c_11
  let main_v33 : IVec S_ 1 := andi main_v28 main_v32
  main_v33

def fn {F : FTy → Type} [FloatOps F] (main_arg0 : FVec F S2x4096x2048 .f32) (main_arg1 : FVec F S4096x32 .f32) (main_arg2 : FVec F S4096x32 .f32) (main_arg3 : FVec F S2048x1536 .f32) (main_arg4 : FVec F S1536 .f32) (main_arg5 : FVec F S1536x3072 .f32) (main_arg6 : FVec F S2048x576 .f32) : IVec S_ 1 :=
  let main_v0 : FVec F S2x4096x2048 .f32 := Host.absf main_arg0
  let main_cst : FVec F S_ .f32 := constant S_ .f32 0x7F800000#32
  let main_v1 : FVec F S2x4096x2048 .f32 := broadcastInDim S2x4096x2048 ![] bcast_S_S2x4096x2048 main_cst
  let main_v2 : IVec S2x4096x2048 1 := cmpf .olt main_v0 main_v1
  let main_c : IVec S_ 1 := constantI S_ 1 1#1
  let main_v3 : IVec S_ 1 := (fun x v => Host.reduce IntOp.andi x v reducesTo_S2x4096x2048_S_d0_1_2 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x32 .f32 := Host.absf main_arg2
  let main_cst_2 : FVec F S_ .f32 := constant S_ .f32 0x7F800000#32
  let main_v10 : FVec F S4096x32 .f32 := broadcastInDim S4096x32 ![] bcast_S_S4096x32 main_cst_2
  let main_v11 : IVec S4096x32 1 := cmpf .olt main_v9 main_v10
  let main_c_3 : IVec S_ 1 := constantI S_ 1 1#1
  let main_v12 : IVec S_ 1 := (fun x v => Host.reduce IntOp.andi x v reducesTo_S4096x32_S_d0_1 h_S_) main_v11 main_c_3
  let main_v13 : IVec S_ 1 := andi main_v8 main_v12
  let main_v14 : FVec F S2048x1536 .f32 := Host.absf main_arg3
  let main_cst_4 : FVec F S_ .f32 := constant S_ .f32 0x7F800000#32
  let main_v15 : FVec F S2048x1536 .f32 := broadcastInDim S2048x1536 ![] bcast_S_S2048x1536 main_cst_4
  let main_v16 : IVec S2048x1536 1 := cmpf .olt main_v14 main_v15
  fn_part1 (F := F) main_arg4 main_arg5 main_arg6 main_v13 main_v16
-- ==== Kernel.lean ====
abbrev S2x4096x2048 : Shape := ⟨3, ![2, 4096, 2048]⟩
abbrev S4096x32 : Shape := ⟨2, ![4096, 32]⟩
abbrev S2048x1536 : Shape := ⟨2, ![2048, 1536]⟩
abbrev S1536 : Shape := ⟨1, ![1536]⟩
abbrev S1536x3072 : Shape := ⟨2, ![1536, 3072]⟩
abbrev S2048x576 : Shape := ⟨2, ![2048, 576]⟩
abbrev S2x4096x3072 : Shape := ⟨3, ![2, 4096, 3072]⟩
abbrev S2x4096x576 : Shape := ⟨3, ![2, 4096, 576]⟩
abbrev S1x256x2048 : Shape := ⟨3, ![1, 256, 2048]⟩
abbrev S1x256x3072 : Shape := ⟨3, ![1, 256, 3072]⟩
abbrev S1x256x576 : Shape := ⟨3, ![1, 256, 576]⟩
abbrev S256x2048 : Shape := ⟨2, ![256, 2048]⟩
abbrev S256x1536 : Shape := ⟨2, ![256, 1536]⟩
abbrev S256 : Shape := ⟨1, ![256]⟩
abbrev S256x1 : Shape := ⟨2, ![256, 1]⟩
abbrev S1x1536 : Shape := ⟨2, ![1, 1536]⟩
abbrev S256x3072 : Shape := ⟨2, ![256, 3072]⟩
abbrev S256x576 : Shape := ⟨2, ![256, 576]⟩
abbrev S2x4096x16x192 : Shape := ⟨4, ![2, 4096, 16, 192]⟩
abbrev S2x4096x16x128 : Shape := ⟨4, ![2, 4096, 16, 128]⟩
abbrev S2x4096x16x64 : Shape := ⟨4, ![2, 4096, 16, 64]⟩
abbrev S2x4096x16x32x2 : Shape := ⟨5, ![2, 4096, 16, 32, 2]⟩
abbrev S2x4096x16x32x1 : Shape := ⟨5, ![2, 4096, 16, 32, 1]⟩
abbrev S2x4096x16x32 : Shape := ⟨4, ![2, 4096, 16, 32]⟩
abbrev S1x4096x1x32 : Shape := ⟨4, ![1, 4096, 1, 32]⟩
abbrev S2x4096x512 : Shape := ⟨3, ![2, 4096, 512]⟩
abbrev S2x4096x64 : Shape := ⟨3, ![2, 4096, 64]⟩
abbrev S2x4096x1x64 : Shape := ⟨4, ![2, 4096, 1, 64]⟩
abbrev S2x4096x1x32x2 : Shape := ⟨5, ![2, 4096, 1, 32, 2]⟩
abbrev S2x4096x1x32x1 : Shape := ⟨5, ![2, 4096, 1, 32, 1]⟩
abbrev S2x4096x1x32 : Shape := ⟨4, ![2, 4096, 1, 32]⟩

abbrev nBuf : Space → Nat
  | .hbm => 60
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S4096x32, .f32⟩
  | .hbm, ⟨2, _⟩ => ⟨S4096x32, .f32⟩
  | .hbm, ⟨3, _⟩ => ⟨S2048x1536, .f32⟩
  | .hbm, ⟨4, _⟩ => ⟨S1536, .f32⟩
  | .hbm, ⟨5, _⟩ => ⟨S1536x3072, .f32⟩
  | .hbm, ⟨6, _⟩ => ⟨S2048x576, .f32⟩
  | .hbm, ⟨7, _⟩ => ⟨S2048x1536, .bf16⟩
  | .hbm, ⟨8, _⟩ => ⟨S1536x3072, .bf16⟩
  | .hbm, ⟨9, _⟩ => ⟨S2048x576, .bf16⟩
  | .hbm, ⟨10, _⟩ => ⟨S2x4096x3072, .f32⟩
  | .hbm, ⟨11, _⟩ => ⟨S2x4096x576, .f32⟩
  | .hbm, ⟨12, _⟩ => ⟨S2x4096x16x192, .f32⟩
  | .hbm, ⟨13, _⟩ => ⟨S2x4096x16x128, .f32⟩
  | .hbm, ⟨14, _⟩ => ⟨S2x4096x16x64, .f32⟩
  | .hbm, ⟨15, _⟩ => ⟨S2x4096x16x32x2, .f32⟩
  | .hbm, ⟨16, _⟩ => ⟨S2x4096x16x32x1, .f32⟩
  | .hbm, ⟨17, _⟩ => ⟨S2x4096x16x32, .f32⟩
  | .hbm, ⟨18, _⟩ => ⟨S2x4096x16x32x1, .f32⟩
  | .hbm, ⟨19, _⟩ => ⟨S2x4096x16x32, .f32⟩
  | .hbm, ⟨20, _⟩ => ⟨S1x4096x1x32, .f32⟩
  | .hbm, ⟨21, _⟩ => ⟨S1x4096x1x32, .f32⟩
  | .hbm, ⟨22, _⟩ => ⟨S2x4096x16x32, .f32⟩
  | .hbm, ⟨23, _⟩ => ⟨S2x4096x16x32, .f32⟩
  | .hbm, ⟨24, _⟩ => ⟨S2x4096x16x32, .f32⟩
  | .hbm, ⟨25, _⟩ => ⟨S2x4096x16x32, .f32⟩
  | .hbm, ⟨26, _⟩ => ⟨S2x4096x16x32, .f32⟩
  | .hbm, ⟨27, _⟩ => ⟨S2x4096x16x32, .f32⟩
  | .hbm, ⟨28, _⟩ => ⟨S2x4096x16x32, .f32⟩
  | .hbm, ⟨29, _⟩ => ⟨S2x4096x16x32, .f32⟩
  | .hbm, ⟨30, _⟩ => ⟨S2x4096x16x32, .f32⟩
  | .hbm, ⟨31, _⟩ => ⟨S2x4096x16x32, .f32⟩
  | .hbm, ⟨32, _⟩ => ⟨S2x4096x16x32x1, .f32⟩
  | .hbm, ⟨33, _⟩ => ⟨S2x4096x16x32x1, .f32⟩
  | .hbm, ⟨34, _⟩ => ⟨S2x4096x16x32x2, .f32⟩
  | .hbm, ⟨35, _⟩ => ⟨S2x4096x16x64, .f32⟩
  | .hbm, ⟨36, _⟩ => ⟨S2x4096x512, .f32⟩
  | .hbm, ⟨37, _⟩ => ⟨S2x4096x64, .f32⟩
  | .hbm, ⟨38, _⟩ => ⟨S2x4096x1x64, .f32⟩
  | .hbm, ⟨39, _⟩ => ⟨S2x4096x1x32x2, .f32⟩
  | .hbm, ⟨40, _⟩ => ⟨S2x4096x1x32x1, .f32⟩
  | .hbm, ⟨41, _⟩ => ⟨S2x4096x1x32, .f32⟩
  | .hbm, ⟨42, _⟩ => ⟨S2x4096x1x32x1, .f32⟩
  | .hbm, ⟨43, _⟩ => ⟨S2x4096x1x32, .f32⟩
  | .hbm, ⟨44, _⟩ => ⟨S1x4096x1x32, .f32⟩
  | .hbm, ⟨45, _⟩ => ⟨S1x4096x1x32, .f32⟩
  | .hbm, ⟨46, _⟩ => ⟨S2x4096x1x32, .f32⟩
  | .hbm, ⟨47, _⟩ => ⟨S2x4096x1x32, .f32⟩
  | .hbm, ⟨48, _⟩ => ⟨S2x4096x1x32, .f32⟩
  | .hbm, ⟨49, _⟩ => ⟨S2x4096x1x32, .f32⟩
  | .hbm, ⟨50, _⟩ => ⟨S2x4096x1x32, .f32⟩
  | .hbm, ⟨51, _⟩ => ⟨S2x4096x1x32, .f32⟩
  | .hbm, ⟨52, _⟩ => ⟨S2x4096x1x32, .f32⟩
  | .hbm, ⟨53, _⟩ => ⟨S2x4096x1x32, .f32⟩
  | .hbm, ⟨54, _⟩ => ⟨S2x4096x1x32, .f32⟩
  | .hbm, ⟨55, _⟩ => ⟨S2x4096x1x32, .f32⟩
  | .hbm, ⟨56, _⟩ => ⟨S2x4096x1x32x1, .f32⟩
  | .hbm, ⟨57, _⟩ => ⟨S2x4096x1x32x1, .f32⟩
  | .hbm, ⟨58, _⟩ => ⟨S2x4096x1x32x2, .f32⟩
  | .hbm, ⟨59, _⟩ => ⟨S2x4096x1x64, .f32⟩
  | .local _ .vmem, ⟨0, _⟩ => ⟨S1x256x2048, .f32⟩
  | .local _ .vmem, ⟨1, _⟩ => ⟨S1x256x2048, .f32⟩
  | .local _ .vmem, ⟨2, _⟩ => ⟨S2048x1536, .bf16⟩
  | .local _ .vmem, ⟨3, _⟩ => ⟨S1536, .f32⟩
  | .local _ .vmem, ⟨4, _⟩ => ⟨S1536x3072, .bf16⟩
  | .local _ .vmem, ⟨5, _⟩ => ⟨S2048x576, .bf16⟩
  | .local _ .vmem, ⟨6, _⟩ => ⟨S1x256x3072, .f32⟩
  | .local _ .vmem, ⟨7, _⟩ => ⟨S1x256x3072, .f32⟩
  | .local _ .vmem, ⟨8, _⟩ => ⟨S1x256x576, .f32⟩
  | .local _ .vmem, ⟨9, _⟩ => ⟨S1x256x576, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1536x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x576 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x1536_S2048x1536_0_0 : ∀ a, (![0, 0] : Fin 2 → Nat) a + S2048x1536.size a ≤ S2048x1536.size a
  h_S2048x1536 : 0 < S2048x1536.numel
  shapeCasts_S2048x1536_S2048x1536 : S2048x1536.ShapeCasts S2048x1536
  reduces_S256x1536_S256 : S256x1536.Reduces [1] S256
  shapeCasts_S256_S256x1 : S256.ShapeCasts S256x1
  inb_S1536_S1536_0 : ∀ a, (![0] : Fin 1 → Nat) a + S1536.size a ≤ S1536.size a
  h_S1536 : 0 < S1536.numel
  broadcasts_S256x1_S256x1536 : S256x1.Broadcasts S256x1536
  shapeCasts_S1536_S1x1536 : S1536.ShapeCasts S1x1536
  broadcasts_S1x1536_S256x1536 : S1x1536.Broadcasts S256x1536
  inb_S1536x3072_S1536x3072_0_0 : ∀ a, (![0, 0] : Fin 2 → Nat) a + S1536x3072.size a ≤ S1536x3072.size a
  h_S1536x3072 : 0 < S1536x3072.numel
  shapeCasts_S1536x3072_S1536x3072 : S1536x3072.ShapeCasts S1536x3072
  inb_S1x256x3072_S1x256x3072_0_0_0 : ∀ a, (![0, 0, 0] : Fin 3 → Nat) a + S1x256x3072.size a ≤ S1x256x3072.size a
  h_S1x256x3072 : 0 < S1x256x3072.numel
  shapeCasts_S1x256x3072_S256x3072 : S1x256x3072.ShapeCasts S256x3072
  shapeCasts_S256x3072_S1x256x3072 : S256x3072.ShapeCasts S1x256x3072
  inb_S2048x576_S2048x576_0_0 : ∀ a, (![0, 0] : Fin 2 → Nat) a + S2048x576.size a ≤ S2048x576.size a
  h_S2048x576 : 0 < S2048x576.numel
  shapeCasts_S2048x576_S2048x576 : S2048x576.ShapeCasts S2048x576
  inb_S1x256x576_S1x256x576_0_0_0 : ∀ a, (![0, 0, 0] : Fin 3 → Nat) a + S1x256x576.size a ≤ S1x256x576.size a
  h_S1x256x576 : 0 < S1x256x576.numel
  shapeCasts_S1x256x576_S256x576 : S1x256x576.ShapeCasts S256x576
  shapeCasts_S256x576_S1x256x576 : S256x576.ShapeCasts S1x256x576
  shapeCasts_S2x4096x3072_S2x4096x16x192 : S2x4096x3072.ShapeCasts S2x4096x16x192
  slices_S2x4096x16x192_S2x4096x16x128_0_0_0_0 : S2x4096x16x192.Slices ![0, 0, 0, 0] S2x4096x16x128
  slices_S2x4096x16x192_S2x4096x16x64_0_0_0_128 : S2x4096x16x192.Slices ![0, 0, 0, 128] S2x4096x16x64
  shapeCasts_S2x4096x16x64_S2x4096x16x32x2 : S2x4096x16x64.ShapeCasts S2x4096x16x32x2
  slices_S2x4096x16x32x2_S2x4096x16x32x1_0_0_0_0_0 : S2x4096x16x32x2.Slices ![0, 0, 0, 0, 0] S2x4096x16x32x1
  shapeCasts_S2x4096x16x32x1_S2x4096x16x32 : S2x4096x16x32x1.ShapeCasts S2x4096x16x32
  slices_S2x4096x16x32x2_S2x4096x16x32x1_0_0_0_0_1 : S2x4096x16x32x2.Slices ![0, 0, 0, 0, 1] S2x4096x16x32x1
  bcast_S4096x32_S1x4096x1x32_1_3 : S4096x32.BroadcastsInDim S1x4096x1x32 (![1, 3] : Fin 2 → Fin S1x4096x1x32.rank)
  bcast_S1x4096x1x32_S2x4096x16x32_0_1_2_3 : S1x4096x1x32.BroadcastsInDim S2x4096x16x32 (![0, 1, 2, 3] : Fin 4 → Fin S2x4096x16x32.rank)
  bcast_S2x4096x16x32_S2x4096x16x32x1_0_1_2_3 : S2x4096x16x32.BroadcastsInDim S2x4096x16x32x1 (![0, 1, 2, 3] : Fin 4 → Fin S2x4096x16x32x1.rank)
  concatenates_S2x4096x16x32x1_S2x4096x16x32x1_S2x4096x16x32x2_d4 : Shape.Concatenates [S2x4096x16x32x1, S2x4096x16x32x1] S2x4096x16x32x2 4
  shapeCasts_S2x4096x16x32x2_S2x4096x16x64 : S2x4096x16x32x2.ShapeCasts S2x4096x16x64
  slices_S2x4096x576_S2x4096x512_0_0_0 : S2x4096x576.Slices ![0, 0, 0] S2x4096x512
  slices_S2x4096x576_S2x4096x64_0_0_512 : S2x4096x576.Slices ![0, 0, 512] S2x4096x64
  bcast_S2x4096x64_S2x4096x1x64_0_1_3 : S2x4096x64.BroadcastsInDim S2x4096x1x64 (![0, 1, 3] : Fin 3 → Fin S2x4096x1x64.rank)
  shapeCasts_S2x4096x1x64_S2x4096x1x32x2 : S2x4096x1x64.ShapeCasts S2x4096x1x32x2
  slices_S2x4096x1x32x2_S2x4096x1x32x1_0_0_0_0_0 : S2x4096x1x32x2.Slices ![0, 0, 0, 0, 0] S2x4096x1x32x1
  shapeCasts_S2x4096x1x32x1_S2x4096x1x32 : S2x4096x1x32x1.ShapeCasts S2x4096x1x32
  slices_S2x4096x1x32x2_S2x4096x1x32x1_0_0_0_0_1 : S2x4096x1x32x2.Slices ![0, 0, 0, 0, 1] S2x4096x1x32x1
  bcast_S1x4096x1x32_S2x4096x1x32_0_1_2_3 : S1x4096x1x32.BroadcastsInDim S2x4096x1x32 (![0, 1, 2, 3] : Fin 4 → Fin S2x4096x1x32.rank)
  bcast_S2x4096x1x32_S2x4096x1x32x1_0_1_2_3 : S2x4096x1x32.BroadcastsInDim S2x4096x1x32x1 (![0, 1, 2, 3] : Fin 4 → Fin S2x4096x1x32x1.rank)
  concatenates_S2x4096x1x32x1_S2x4096x1x32x1_S2x4096x1x32x2_d4 : Shape.Concatenates [S2x4096x1x32x1, S2x4096x1x32x1] S2x4096x1x32x2 4
  shapeCasts_S2x4096x1x32x2_S2x4096x1x64 : S2x4096x1x32x2.ShapeCasts S2x4096x1x64
  dot_S256x2048_S2048x1536_S256x1536_1_0_0_1_n_n_wf : DotDims.WF S256x2048 S2048x1536 S256x1536 [1] [0] [0] [1] [] []
  dot_S256x1536_S1536x3072_S256x3072_1_0_0_1_n_n_wf : DotDims.WF S256x1536 S1536x3072 S256x3072 [1] [0] [0] [1] [] []
  dot_S256x2048_S2048x576_S256x576_1_0_0_1_n_n_wf : DotDims.WF S256x2048 S2048x576 S256x576 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S2x4096x2048.size a
  hwx0_0 : ∀ i : grid0.Coords, EltTy.bits .f32 = 32 ∨ (Rect.block (s := S2x4096x2048) S1x256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1536.size a ≤ S2048x1536.size a
  hwx0_1 : ∀ i : grid0.Coords, EltTy.bits .bf16 = 32 ∨ (Rect.block (s := S2048x1536) S2048x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1536.size a ≤ S1536.size a
  hwx0_2 : ∀ i : grid0.Coords, EltTy.bits .f32 = 32 ∨ (Rect.block (s := S1536) S1536.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536x3072.size a ≤ S1536x3072.size a
  hwx0_3 : ∀ i : grid0.Coords, EltTy.bits .bf16 = 32 ∨ (Rect.block (s := S1536x3072) S1536x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x576.size a ≤ S2048x576.size a
  hwx0_4 : ∀ i : grid0.Coords, EltTy.bits .bf16 = 32 ∨ (Rect.block (s := S2048x576) S2048x576.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x3072.size a ≤ S2x4096x3072.size a
  hwx0_5 : ∀ i : grid0.Coords, EltTy.bits .f32 = 32 ∨ (Rect.block (s := S2x4096x3072) S1x256x3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x576.size a ≤ S2x4096x576.size a
  hwx0_6 : ∀ i : grid0.Coords, EltTy.bits .f32 = 32 ∨ (Rect.block (s := S2x4096x576) S1x256x576.size (cc0_transform_6 i) (hinb0_6 i)).WholeWords (EltTy.packing .f32)

variable [Facts₀]

def dot_S256x2048_S2048x1536_S256x1536_1_0_0_1_n_n : DotDims S256x2048 S2048x1536 S256x1536 where
  lhsContracting := [1]
  rhsContracting := [0]
  lhsNonContracting := [0]
  rhsNonContracting := [1]
  lhsBatch := []
  rhsBatch := []
  wf := dot_S256x2048_S2048x1536_S256x1536_1_0_0_1_n_n_wf
def dot_S256x1536_S1536x3072_S256x3072_1_0_0_1_n_n : DotDims S256x1536 S1536x3072 S256x3072 where
  lhsContracting := [1]
  rhsContracting := [0]
  lhsNonContracting := [0]
  rhsNonContracting := [1]
  lhsBatch := []
  rhsBatch := []
  wf := dot_S256x1536_S1536x3072_S256x3072_1_0_0_1_n_n_wf
def dot_S256x2048_S2048x576_S256x576_1_0_0_1_n_n : DotDims S256x2048 S2048x576 S256x576 where
  lhsContracting := [1]
  rhsContracting := [0]
  lhsNonContracting := [0]
  rhsNonContracting := [1]
  lhsBatch := []
  rhsBatch := []
  wf := dot_S256x2048_S2048x576_S256x576_1_0_0_1_n_n_wf

abbrev win0_0 : Pipeline.Window sig grid0 :=
  Pipeline.Window.ofSpec (Memref.whole main_arg0) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1536x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2048x576.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x256x3072.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x256x576.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x4096x2048 : Shape := ⟨3, ![2, 4096, 2048]⟩
abbrev S4096x32 : Shape := ⟨2, ![4096, 32]⟩
abbrev S2048x1536 : Shape := ⟨2, ![2048, 1536]⟩
abbrev S1536 : Shape := ⟨1, ![1536]⟩
abbrev S1536x3072 : Shape := ⟨2, ![1536, 3072]⟩
abbrev S2048x576 : Shape := ⟨2, ![2048, 576]⟩
abbrev S2x4096x1536 : Shape := ⟨3, ![2, 4096, 1536]⟩
abbrev S_ : Shape := ⟨0, ![]⟩
abbrev S2x4096 : Shape := ⟨2, ![2, 4096]⟩
abbrev S2x4096x1 : Shape := ⟨3, ![2, 4096, 1]⟩
abbrev S1x1x1536 : Shape := ⟨3, ![1, 1, 1536]⟩
abbrev S2x4096x3072 : Shape := ⟨3, ![2, 4096, 3072]⟩
abbrev S2x4096x16x192 : Shape := ⟨4, ![2, 4096, 16, 192]⟩
abbrev S2x4096x16x128 : Shape := ⟨4, ![2, 4096, 16, 128]⟩
abbrev S2x4096x16x64 : Shape := ⟨4, ![2, 4096, 16, 64]⟩
abbrev S2x4096x16x32x2 : Shape := ⟨5, ![2, 4096, 16, 32, 2]⟩
abbrev S2x4096x16x32x1 : Shape := ⟨5, ![2, 4096, 16, 32, 1]⟩
abbrev S2x4096x16x32 : Shape := ⟨4, ![2, 4096, 16, 32]⟩
abbrev S1x4096x1x32 : Shape := ⟨4, ![1, 4096, 1, 32]⟩
abbrev S2x4096x576 : Shape := ⟨3, ![2, 4096, 576]⟩
abbrev S2x4096x512 : Shape := ⟨3, ![2, 4096, 512]⟩
abbrev S2x4096x64 : Shape := ⟨3, ![2, 4096, 64]⟩
abbrev S2x4096x1x64 : Shape := ⟨4, ![2, 4096, 1, 64]⟩
abbrev S2x4096x1x32x2 : Shape := ⟨5, ![2, 4096, 1, 32, 2]⟩
abbrev S2x4096x1x32x1 : Shape := ⟨5, ![2, 4096, 1, 32, 1]⟩
abbrev S2x4096x1x32 : Shape := ⟨4, ![2, 4096, 1, 32]⟩

abbrev nBuf : Space → Nat
  | .hbm => 74
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4096x32, .f32⟩
  | .hbm, ⟨2, _⟩ => ⟨S4096x32, .f32⟩
  | .hbm, ⟨3, _⟩ => ⟨S2048x1536, .f32⟩
  | .hbm, ⟨4, _⟩ => ⟨S1536, .f32⟩
  | .hbm, ⟨5, _⟩ => ⟨S1536x3072, .f32⟩
  | .hbm, ⟨6, _⟩ => ⟨S2048x576, .f32⟩
  | .hbm, ⟨7, _⟩ => ⟨S2x4096x1536, .f32⟩
  | .hbm, ⟨8, _⟩ => ⟨S2x4096x1536, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x1536, .f32⟩
  | .hbm, ⟨20, _⟩ => ⟨S2x4096x1536, .f32⟩
  | .hbm, ⟨21, _⟩ => ⟨S1x1x1536, .f32⟩
  | .hbm, ⟨22, _⟩ => ⟨S2x4096x1536, .f32⟩
  | .hbm, ⟨23, _⟩ => ⟨S2x4096x1536, .f32⟩
  | .hbm, ⟨24, _⟩ => ⟨S2x4096x3072, .f32⟩
  | .hbm, ⟨25, _⟩ => ⟨S2x4096x16x192, .f32⟩
  | .hbm, ⟨26, _⟩ => ⟨S2x4096x16x128, .f32⟩
  | .hbm, ⟨27, _⟩ => ⟨S2x4096x16x64, .f32⟩
  | .hbm, ⟨28, _⟩ => ⟨S2x4096x16x32x2, .f32⟩
  | .hbm, ⟨29, _⟩ => ⟨S2x4096x16x32x1, .f32⟩
  | .hbm, ⟨30, _⟩ => ⟨S2x4096x16x32, .f32⟩
  | .hbm, ⟨31, _⟩ => ⟨S2x4096x16x32x1, .f32⟩
  | .hbm, ⟨32, _⟩ => ⟨S2x4096x16x32, .f32⟩
  | .hbm, ⟨33, _⟩ => ⟨S1x4096x1x32, .f32⟩
  | .hbm, ⟨34, _⟩ => ⟨S1x4096x1x32, .f32⟩
  | .hbm, ⟨35, _⟩ => ⟨S2x4096x16x32, .f32⟩
  | .hbm, ⟨36, _⟩ => ⟨S2x4096x16x32, .f32⟩
  | .hbm, ⟨37, _⟩ => ⟨S2x4096x16x32, .f32⟩
  | .hbm, ⟨38, _⟩ => ⟨S2x4096x16x32, .f32⟩
  | .hbm, ⟨39, _⟩ => ⟨S2x4096x16x32, .f32⟩
  | .hbm, ⟨40, _⟩ => ⟨S2x4096x16x32, .f32⟩
  | .hbm, ⟨41, _⟩ => ⟨S2x4096x16x32, .f32⟩
  | .hbm, ⟨42, _⟩ => ⟨S2x4096x16x32, .f32⟩
  | .hbm, ⟨43, _⟩ => ⟨S2x4096x16x32, .f32⟩
  | .hbm, ⟨44, _⟩ => ⟨S2x4096x16x32, .f32⟩
  | .hbm, ⟨45, _⟩ => ⟨S2x4096x16x32x1, .f32⟩
  | .hbm, ⟨46, _⟩ => ⟨S2x4096x16x32x1, .f32⟩
  | .hbm, ⟨47, _⟩ => ⟨S2x4096x16x32x2, .f32⟩
  | .hbm, ⟨48, _⟩ => ⟨S2x4096x16x64, .f32⟩
  | .hbm, ⟨49, _⟩ => ⟨S2x4096x576, .f32⟩
  | .hbm, ⟨50, _⟩ => ⟨S2x4096x512, .f32⟩
  | .hbm, ⟨51, _⟩ => ⟨S2x4096x64, .f32⟩
  | .hbm, ⟨52, _⟩ => ⟨S2x4096x1x64, .f32⟩
  | .hbm, ⟨53, _⟩ => ⟨S2x4096x1x32x2, .f32⟩
  | .hbm, ⟨54, _⟩ => ⟨S2x4096x1x32x1, .f32⟩
  | .hbm, ⟨55, _⟩ => ⟨S2x4096x1x32, .f32⟩
  | .hbm, ⟨56, _⟩ => ⟨S2x4096x1x32x1, .f32⟩
  | .hbm, ⟨57, _⟩ => ⟨S2x4096x1x32, .f32⟩
  | .hbm, ⟨58, _⟩ => ⟨S1x4096x1x32, .f32⟩
  | .hbm, ⟨59, _⟩ => ⟨S1x4096x1x32, .f32⟩
  | .hbm, ⟨60, _⟩ => ⟨S2x4096x1x32, .f32⟩
  | .hbm, ⟨61, _⟩ => ⟨S2x4096x1x32, .f32⟩
  | .hbm, ⟨62, _⟩ => ⟨S2x4096x1x32, .f32⟩
  | .hbm, ⟨63, _⟩ => ⟨S2x4096x1x32, .f32⟩
  | .hbm, ⟨64, _⟩ => ⟨S2x4096x1x32, .f32⟩
  | .hbm, ⟨65, _⟩ => ⟨S2x4096x1x32, .f32⟩
  | .hbm, ⟨66, _⟩ => ⟨S2x4096x1x32, .f32⟩
  | .hbm, ⟨67, _⟩ => ⟨S2x4096x1x32, .f32⟩
  | .hbm, ⟨68, _⟩ => ⟨S2x4096x1x32, .f32⟩
  | .hbm, ⟨69, _⟩ => ⟨S2x4096x1x32, .f32⟩
  | .hbm, ⟨70, _⟩ => ⟨S2x4096x1x32x1, .f32⟩
  | .hbm, ⟨71, _⟩ => ⟨S2x4096x1x32x1, .f32⟩
  | .hbm, ⟨72, _⟩ => ⟨S2x4096x1x32x2, .f32⟩
  | .hbm, ⟨73, _⟩ => ⟨S2x4096x1x64, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩

abbrev nD : Nat := 1
abbrev τ : Topo := Topo.v7x

variable {F : FTy → Type} [FloatOps F]

class Facts₀ : Prop where
  reducesTo_S2x4096x1536_S2x4096_d2 : S2x4096x1536.ReducesTo [2] S2x4096
  h_S_ : 0 < S_.numel
  bcast_S2x4096_S2x4096x1_0_1 : S2x4096.BroadcastsInDim S2x4096x1 (![0, 1] : Fin 2 → Fin S2x4096x1.rank)
  bcast_S_S2x4096x1 : S_.BroadcastsInDim S2x4096x1 (![] : Fin 0 → Fin S2x4096x1.rank)
  bcast_S2x4096x1_S2x4096x1536_0_1_2 : S2x4096x1.BroadcastsInDim S2x4096x1536 (![0, 1, 2] : Fin 3 → Fin S2x4096x1536.rank)
  bcast_S1536_S1x1x1536_2 : S1536.BroadcastsInDim S1x1x1536 (![2] : Fin 1 → Fin S1x1x1536.rank)
  bcast_S1x1x1536_S2x4096x1536_0_1_2 : S1x1x1536.BroadcastsInDim S2x4096x1536 (![0, 1, 2] : Fin 3 → Fin S2x4096x1536.rank)
  shapeCasts_S2x4096x3072_S2x4096x16x192 : S2x4096x3072.ShapeCasts S2x4096x16x192
  slices_S2x4096x16x192_S2x4096x16x128_0_0_0_0 : S2x4096x16x192.Slices ![0, 0, 0, 0] S2x4096x16x128
  slices_S2x4096x16x192_S2x4096x16x64_0_0_0_128 : S2x4096x16x192.Slices ![0, 0, 0, 128] S2x4096x16x64
  shapeCasts_S2x4096x16x64_S2x4096x16x32x2 : S2x4096x16x64.ShapeCasts S2x4096x16x32x2
  slices_S2x4096x16x32x2_S2x4096x16x32x1_0_0_0_0_0 : S2x4096x16x32x2.Slices ![0, 0, 0, 0, 0] S2x4096x16x32x1
  shapeCasts_S2x4096x16x32x1_S2x4096x16x32 : S2x4096x16x32x1.ShapeCasts S2x4096x16x32
  slices_S2x4096x16x32x2_S2x4096x16x32x1_0_0_0_0_1 : S2x4096x16x32x2.Slices ![0, 0, 0, 0, 1] S2x4096x16x32x1
  bcast_S4096x32_S1x4096x1x32_1_3 : S4096x32.BroadcastsInDim S1x4096x1x32 (![1, 3] : Fin 2 → Fin S1x4096x1x32.rank)
  bcast_S1x4096x1x32_S2x4096x16x32_0_1_2_3 : S1x4096x1x32.BroadcastsInDim S2x4096x16x32 (![0, 1, 2, 3] : Fin 4 → Fin S2x4096x16x32.rank)
  bcast_S2x4096x16x32_S2x4096x16x32x1_0_1_2_3 : S2x4096x16x32.BroadcastsInDim S2x4096x16x32x1 (![0, 1, 2, 3] : Fin 4 → Fin S2x4096x16x32x1.rank)
  concatenates_S2x4096x16x32x1_S2x4096x16x32x1_S2x4096x16x32x2_d4 : Shape.Concatenates [S2x4096x16x32x1, S2x4096x16x32x1] S2x4096x16x32x2 4
  shapeCasts_S2x4096x16x32x2_S2x4096x16x64 : S2x4096x16x32x2.ShapeCasts S2x4096x16x64
  slices_S2x4096x576_S2x4096x512_0_0_0 : S2x4096x576.Slices ![0, 0, 0] S2x4096x512
  slices_S2x4096x576_S2x4096x64_0_0_512 : S2x4096x576.Slices ![0, 0, 512] S2x4096x64
  bcast_S2x4096x64_S2x4096x1x64_0_1_3 : S2x4096x64.BroadcastsInDim S2x4096x1x64 (![0, 1, 3] : Fin 3 → Fin S2x4096x1x64.rank)
  shapeCasts_S2x4096x1x64_S2x4096x1x32x2 : S2x4096x1x64.ShapeCasts S2x4096x1x32x2
  slices_S2x4096x1x32x2_S2x4096x1x32x1_0_0_0_0_0 : S2x4096x1x32x2.Slices ![0, 0, 0, 0, 0] S2x4096x1x32x1
  shapeCasts_S2x4096x1x32x1_S2x4096x1x32 : S2x4096x1x32x1.ShapeCasts S2x4096x1x32
  slices_S2x4096x1x32x2_S2x4096x1x32x1_0_0_0_0_1 : S2x4096x1x32x2.Slices ![0, 0, 0, 0, 1] S2x4096x1x32x1
  bcast_S1x4096x1x32_S2x4096x1x32_0_1_2_3 : S1x4096x1x32.BroadcastsInDim S2x4096x1x32 (![0, 1, 2, 3] : Fin 4 → Fin S2x4096x1x32.rank)
  bcast_S2x4096x1x32_S2x4096x1x32x1_0_1_2_3 : S2x4096x1x32.BroadcastsInDim S2x4096x1x32x1 (![0, 1, 2, 3] : Fin 4 → Fin S2x4096x1x32x1.rank)
  concatenates_S2x4096x1x32x1_S2x4096x1x32x1_S2x4096x1x32x2_d4 : Shape.Concatenates [S2x4096x1x32x1, S2x4096x1x32x1] S2x4096x1x32x2 4
  shapeCasts_S2x4096x1x32x2_S2x4096x1x64 : S2x4096x1x32x2.ShapeCasts S2x4096x1x64
  dot_S2x4096x2048_S2048x1536_S2x4096x1536_2_0_01_1_n_n_wf : DotDims.WF S2x4096x2048 S2048x1536 S2x4096x1536 [2] [0] [0, 1] [1] [] []
  dot_S2x4096x1536_S1536x3072_S2x4096x3072_2_0_01_1_n_n_wf : DotDims.WF S2x4096x1536 S1536x3072 S2x4096x3072 [2] [0] [0, 1] [1] [] []
  dot_S2x4096x2048_S2048x576_S2x4096x576_2_0_01_1_n_n_wf : DotDims.WF S2x4096x2048 S2048x576 S2x4096x576 [2] [0] [0, 1] [1] [] []

variable [Facts₀]

def dot_S2x4096x2048_S2048x1536_S2x4096x1536_2_0_01_1_n_n : DotDims S2x4096x2048 S2048x1536 S2x4096x1536 where
  lhsContracting := [2]
  rhsContracting := [0]
  lhsNonContracting := [0, 1]
  rhsNonContracting := [1]
  lhsBatch := []
  rhsBatch := []
  wf := dot_S2x4096x2048_S2048x1536_S2x4096x1536_2_0_01_1_n_n_wf
def dot_S2x4096x1536_S1536x3072_S2x4096x3072_2_0_01_1_n_n : DotDims S2x4096x1536 S1536x3072 S2x4096x3072 where
  lhsContracting := [2]
  rhsContracting := [0]
  lhsNonContracting := [0, 1]
  rhsNonContracting := [1]
  lhsBatch := []
  rhsBatch := []
  wf := dot_S2x4096x1536_S1536x3072_S2x4096x3072_2_0_01_1_n_n_wf
def dot_S2x4096x2048_S2048x576_S2x4096x576_2_0_01_1_n_n : DotDims S2x4096x2048 S2048x576 S2x4096x576 where
  lhsContracting := [2]
  rhsContracting := [0]
  lhsNonContracting := [0, 1]
  rhsNonContracting := [1]
  lhsBatch := []
  rhsBatch := []
  wf := dot_S2x4096x2048_S2048x576_S2x4096x576_2_0_01_1_n_n_wf

class Facts : Prop extends Facts₀ where

variable [Facts]
-- ==== Proof.Spec.lean ====
/-
  The two arrays the fused kernel writes, as functions of the argument arrays, entry by entry, on the extended reals.

  Rows are indexed by a batch coordinate b and a sequence coordinate s. For the row (b, s) of x:
    * down(b, s, j)  = Σ_k x[b, s, k] · A[k, j]                       (the low-rank projection, j < 1536)
    * scale(b, s)    = rsqrt( (Σ_j down(b, s, j)²) / 1536 + ε )         (the reciprocal root-mean-square of that row)
    * query(b, s, h) = Σ_j ((down(b, s, j) · scale(b, s)) · g[j]) · B[j, h]   (normalised, weighted by g, projected up)
    * keyval(b, s, r) = Σ_k x[b, s, k] · C[k, r]                       (the second projection of the same row)
  The divisor 1536 and ε are kept as the float words both programs print; they are never evaluated.
-/
import Idealize.ShloMosaic.PureOps.Ideal
import Idealize.ShloMosaic.Lib.ValueIdx

noncomputable section

open scoped BigOperators

namespace Cert.Spec

open Idealize.ShloMosaic Idealize.ShloMosaic.ValueIdx

/-- The row (b, s) of x projected by A, at column j. -/
def down (x : (⟨3, ![2, 4096, 2048]⟩ : Shape).Idx → EReal) (A : (⟨2, ![2048, 1536]⟩ : Shape).Idx → EReal)
    (b : Fin 2) (s : Fin 4096) (j : Fin 1536) : EReal :=
  ∑ k : Fin 2048, x (ix3 b s k) * A (ix2 k j)

/-- The reciprocal root-mean-square of the projected row (b, s): rsqrt of the mean of its squares plus ε. -/
def scale (x : (⟨3, ![2, 4096, 2048]⟩ : Shape).Idx → EReal) (A : (⟨2, ![2048, 1536]⟩ : Shape).Idx → EReal)
    (b : Fin 2) (s : Fin 4096) : EReal :=
  Ideal.rsqrt (Ideal.div (∑ j : Fin 1536, down x A b s j * down x A b s j) (Ideal.ofBits .f32 0x44C00000#32)
    + Ideal.ofBits .f32 0x358637BD#32)

/-- The normalised projected row, weighted by g, at column j. -/
def normed (x : (⟨3, ![2, 4096, 2048]⟩ : Shape).Idx → EReal) (A : (⟨2, ![2048, 1536]⟩ : Shape).Idx → EReal)
    (g : (⟨1, ![1536]⟩ : Shape).Idx → EReal) (b : Fin 2) (s : Fin 4096) (j : Fin 1536) : EReal :=
  (down x A b s j * scale x A b s) * g (ix1 j)

/-- The query array: the normalised row projected up by B. -/
def query (x : (⟨3, ![2, 4096, 2048]⟩ : Shape).Idx → EReal) (A : (⟨2, ![2048, 1536]⟩ : Shape).Idx → EReal)
    (g : (⟨1, ![1536]⟩ : Shape).Idx → EReal) (B : (⟨2, ![1536, 3072]⟩ : Shape).Idx → EReal) :
    (⟨3, ![2, 4096, 3072]⟩ : Shape).Idx → EReal :=
  fun i => ∑ j : Fin 1536, normed x A g (i 0) (i 1) j * B (ix2 j (i 2))

/-- The key-value array: the same rows of x projected by C. -/
def keyval (x : (⟨3, ![2, 4096, 2048]⟩ : Shape).Idx → EReal) (C : (⟨2, ![2048, 576]⟩ : Shape).Idx → EReal) :
    (⟨3, ![2, 4096, 576]⟩ : Shape).Idx → EReal :=
  fun i => ∑ k : Fin 2048, x (ix3 (i 0) (i 1) k) * C (ix2 k (i 2))

end Cert.Spec

end
-- ==== Proof.LibNormMatmul.lean ====
/-
  Two readings at an index given by coordinates, on the extended reals, for arrays of rank two with literal extents.
  (1) A plain matrix product  A · B  (A of extents [m, k], B of extents [k, n], contracting the second axis of A with the
      first of B) accumulated into the zero array: the entry (r, j) is  Σ_c A[r, c] · B[c, j].
  (2) A row-wise affine normalisation  ((X − μ) · rsqrt(v + ε)) · γ + β  of an [a, b] array X by four [1, b] rows
      broadcast down the rows: the entry (r, k) is  ((X[r, k] − μ[0, k]) · rsqrt(v[0, k] + ε)) · γ[0, k] + β[0, k].
  They depend on nothing but the library: any certificate whose body normalises rows and multiplies by a weight matrix
  can use them.
-/
import Idealize.ShloMosaic.PureOps.Ideal.Laws
import Idealize.ShloMosaic.Lib.ValueLayout
import Idealize.ShloMosaic.Lib.ValueIdx

noncomputable section

open scoped BigOperators

namespace Cert.LibNormMatmul

open Idealize.ShloMosaic Idealize.ShloMosaic.ValueIdx

/-- The plain product of an [m, k] by a [k, n] matrix into the zero accumulator, read at (r, j), is the sum over the
    contracted coordinate of the products of the entries. `w` is the record's well-formedness, which a program states. -/
theorem matmul_zero_apply {m k n : ℕ}
    (w : DotDims.WF ⟨2, ![m, k]⟩ ⟨2, ![k, n]⟩ ⟨2, ![m, n]⟩ [1] [0] [0] [1] [] [])
    (prec : Option ContractPrecision) (A : FVec Ideal ⟨2, ![m, k]⟩ .f32) (B : FVec Ideal ⟨2, ![k, n]⟩ .f32)
    (r : Fin m) (j : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 r j)
      = ∑ c : Fin k, A (ix2 r c) * B (ix2 c j) := by
  show FloatOps.matmul _ prec A B _ (ix2 r j) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 r j)
      ((contrEquiv1 _ k rfl rfl).symm c) = ix2 r c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r j)
      ((contrEquiv1 _ k rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- The row-wise affine normalisation read at (r, k): every broadcast row is read at its one row, column k. -/
theorem norm_affine_apply {a b : ℕ} (X : FVec Ideal ⟨2, ![a, b]⟩ .f32) (μ v γ β : FVec Ideal ⟨2, ![1, b]⟩ .f32)
    (h : (⟨2, ![1, b]⟩ : Shape).Broadcasts ⟨2, ![a, b]⟩) (ε : EReal) (r : Fin a) (k : Fin b) :
    addf (mulf (mulf (subf X (broadcastTo ⟨2, ![a, b]⟩ μ h))
          (broadcastTo ⟨2, ![a, b]⟩ (rsqrt (addf v (broadcast ⟨2, ![1, b]⟩ ε))) h))
        (broadcastTo ⟨2, ![a, b]⟩ γ h)) (broadcastTo ⟨2, ![a, b]⟩ β h) (ix2 r k)
      = ((X (ix2 r k) - μ (ix2 (0 : Fin 1) k)) * Ideal.rsqrt (v (ix2 (0 : Fin 1) k) + ε)) * γ (ix2 (0 : Fin 1) k)
          + β (ix2 (0 : Fin 1) k) := by
  rw [addf_apply, mulf_apply, mulf_apply, subf_apply, broadcastTo_1b_ab_apply, broadcastTo_1b_ab_apply,
    broadcastTo_1b_ab_apply, broadcastTo_1b_ab_apply]
  rfl

end Cert.LibNormMatmul

end
-- ==== Proof.LibColumnLayout.lean ====
/-
  Two layout operations read at an index given by coordinates, for arrays that keep a reduced axis as a unit LAST axis
  (a row statistic kept as a column): a vector cast to a column, and a column broadcast over the lanes. They complete
  the leading-unit-axis casts and the row broadcast of the library's Lib/ValueLayout.lean, in the same style, and depend
  on nothing but the library: any certificate whose body takes a row sum with the reduced axis kept can use them.
-/
import Idealize.ShloMosaic.Lib.ValueLayout
import Idealize.ShloMosaic.Lib.ValueIdx

namespace Cert.LibColumnLayout

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry in row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

end Cert.LibColumnLayout
-- ==== Proof.LibLaneSum.lean ====
/-
  A sum along the lanes of a rank-two array, read at an entry given by coordinates, on the extended reals: the sum over
  the columns of an [m, n] array, in row p, is the sum over the columns q of the entry (p, q). It completes the library's
  reading of a one-axis float sum (PureOps/Ideal/Laws.lean) with both indices written by coordinates, and depends on
  the library only: any certificate whose body takes a row statistic (a mean of squares, a row total) can use it.
-/
import Idealize.ShloMosaic.PureOps.Ideal.Laws
import Idealize.ShloMosaic.Lib.ValueIdx

noncomputable section

open scoped BigOperators

namespace Cert.LibLaneSum

open Idealize.ShloMosaic Idealize.ShloMosaic.ValueIdx

/-- A sum over the columns of an [m, n] array, in row p: the sum over the columns q of the entry (p, q). -/
theorem lanesum_apply {m n : ℕ} (src : FVec Ideal ⟨2, ![m, n]⟩ .f32)
    (h : Shape.Reduces ⟨2, ![m, n]⟩ [1] ⟨1, ![m]⟩) (hφ : FKind.Formats .f32)
    (hacc : (0x00000000#32 : BitVec 32) = FKind.add.neutral .f32 hφ) (p : Fin m) :
    multiReduction .add [1] ⟨1, ![m]⟩ src 0x00000000#32 h hφ hacc (ix1 p) = ∑ q : Fin n, src (ix2 p q) := by
  refine (Ideal.multiReduction_add_single src 0x00000000#32 h hφ hacc (ix1 p)).trans ?_
  refine Finset.sum_congr rfl fun q _ => congrArg src ?_
  funext ax; apply Fin.ext
  match ax with
  | ⟨0, _⟩ => rfl
  | ⟨1, _⟩ => rfl

end Cert.LibLaneSum

end
-- ==== Proof.KernelPayload.lean ====
/-
  What one grid point of the fused kernel computes, entry by entry, on the extended reals.

  At a point the body holds a block x0 of 256 rows of x (extents [1, 256, 2048]) and the whole weight arrays
  A' [2048, 1536], g' [1536], B' [1536, 3072], C' [2048, 576]. Changes of float format are the identity here, a matrix
  product into a zero accumulator is the sum over the contracted coordinate, and the lane sum of the squares is a sum
  over the columns. So for block row r:
    * the first product is     down r j = Σ_k x0[0, r, k] · A'[k, j];
    * the row statistic is     scale r  = rsqrt( (Σ_j (down r j)²) / 1536 + ε ), kept as a column and broadcast over the lanes;
    * the first store holds    Σ_j ((down r j · scale r) · g'[j]) · B'[j, h]   at (u, r, h);
    * the second store holds   Σ_k x0[0, r, k] · C'[k, h]                      at (u, r, h).
  When block row r is row (b, s) of x and the weight blocks are the weight arrays, these are the specification's
  `query` and `keyval` at (b, s, h): the last two theorems, stated over plain variables so that they can be
  instantiated at any point's blocks.
-/
import proofs.«123904_j41016937677183_1_alg».proof.Proof.Gen.KernelIdeal.Skeleton
import proofs.«123904_j41016937677183_1_alg».proof.Proof.Spec
import proofs.«123904_j41016937677183_1_alg».proof.Proof.LibNormMatmul
import proofs.«123904_j41016937677183_1_alg».proof.Proof.LibColumnLayout
import proofs.«123904_j41016937677183_1_alg».proof.Proof.LibLaneSum
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelPayload

open Cert.KernelIdeal Cert.KernelIdeal.Gen Idealize.ShloMosaic Idealize.ShloMosaic.ValueIdx

variable [Cert.KernelIdeal.Facts]

/-- The block of x with its unit axis dropped and its format changed reads, at (r, k), the block at (0, r, k). -/
theorem xrow (x0 : Vec Ideal S1x256x2048 .f32) (r : Fin 256) (k : Fin 2048) :
    k0_pay1 (F := Ideal) x0 (ix2 r k) = x0 (ix3 (0 : Fin 1) r k) := by
  unfold k0_pay1
  exact shapeCast_1ab_ab_apply x0 _ r k

/-- Block row r projected by the first weight block, at column j. -/
def downB (x0 : Vec Ideal S1x256x2048 .f32) (x1 : Vec Ideal S2048x1536 .bf16) (r : Fin 256) (j : Fin 1536) : EReal :=
  ∑ k : Fin 2048, x0 (ix3 (0 : Fin 1) r k) * x1 (ix2 k j)

/-- The reciprocal root-mean-square of the projected block row r. -/
def scaleB (x0 : Vec Ideal S1x256x2048 .f32) (x1 : Vec Ideal S2048x1536 .bf16) (r : Fin 256) : EReal :=
  Ideal.rsqrt (Ideal.div (∑ j : Fin 1536, downB x0 x1 r j * downB x0 x1 r j) (Ideal.ofBits .f32 0x44C00000#32)
    + Ideal.ofBits .f32 0x358637BD#32)

/-- The first matrix product at (r, j) is the projected block row. -/
theorem down_apply (x0 : Vec Ideal S1x256x2048 .f32) (x1 : FVec Ideal S2048x1536 .bf16) (r : Fin 256) (j : Fin 1536) :
    matmul dot_S256x2048_S2048x1536_S256x1536_1_0_0_1_n_n none (k0_pay1 (F := Ideal) x0) x1
      (constant (F := Ideal) S256x1536 .f32 0x00000000#32) (ix2 r j) = downB x0 x1 r j := by
  refine (Cert.LibNormMatmul.matmul_zero_apply _ none _ _ r j).trans ?_
  unfold downB
  refine Finset.sum_congr rfl fun k _ => ?_
  rw [xrow]

/-- The first store's value at (u, r, h): the normalised, weighted block row projected by the second weight block. -/
theorem pay2_apply (x0 : Vec Ideal S1x256x2048 .f32) (x1 : Vec Ideal S2048x1536 .bf16) (x2 : Vec Ideal S1536 .f32)
    (x3 : Vec Ideal S1536x3072 .bf16) (u : Fin 1) (r : Fin 256) (h : Fin 3072) :
    k0_pay2 (F := Ideal) x0 x1 x2 x3 (ix3 u r h)
      = ∑ j : Fin 1536, ((downB x0 x1 r j * scaleB x0 x1 r) * x2 (ix1 j)) * x3 (ix2 j h) := by
  unfold k0_pay2
  refine (shapeCast_ab_1ab_apply _ _ u r h).trans ?_
  refine (Cert.LibNormMatmul.matmul_zero_apply _ none _ _ r h).trans ?_
  refine Finset.sum_congr rfl fun j _ => ?_
  simp only [shapeCast_self]
  refine congrArg (· * x3 (ix2 j h)) ?_
  rw [truncf_apply, mulf_apply, mulf_apply, Cert.LibColumnLayout.broadcastTo_a1_ab_apply, broadcastTo_1b_ab_apply,
    shapeCast_a_1a_apply, down_apply]
  refine congrArg (fun z => downB x0 x1 r j * z * x2 (ix1 j)) ?_
  unfold scaleB
  show Ideal.rsqrt (Ideal.div (shapeCast S256x1 _ _ (ix2 r (0 : Fin 1))) (Ideal.ofBits .f32 0x44C00000#32)
    + Ideal.ofBits .f32 0x358637BD#32) = _
  refine congrArg (fun z => Ideal.rsqrt (Ideal.div z (Ideal.ofBits .f32 0x44C00000#32) + Ideal.ofBits .f32 0x358637BD#32)) ?_
  rw [Cert.LibColumnLayout.shapeCast_a_a1_apply]
  refine (Cert.LibLaneSum.lanesum_apply _ _ _ _ r).trans ?_
  refine Finset.sum_congr rfl fun q _ => ?_
  rw [mulf_apply, down_apply]

/-- The second store's value at (u, r, h): block row r projected by the third weight block. -/
theorem pay3_apply (x0 : Vec Ideal S1x256x2048 .f32) (x4 : Vec Ideal S2048x576 .bf16) (u : Fin 1) (r : Fin 256) (h : Fin 576) :
    k0_pay3 (F := Ideal) x0 x4 (ix3 u r h) = ∑ k : Fin 2048, x0 (ix3 (0 : Fin 1) r k) * x4 (ix2 k h) := by
  unfold k0_pay3
  refine (shapeCast_ab_1ab_apply _ _ u r h).trans ?_
  refine (Cert.LibNormMatmul.matmul_zero_apply _ none _ _ r h).trans ?_
  refine Finset.sum_congr rfl fun k _ => ?_
  rw [xrow, shapeCast_self]

/-- When block row r of x0 is row (b, s) of X and the weight blocks are the weight arrays, the first store's value at
    (u, r, h) is the specification's query at (b, s, h). -/
theorem pay2_point (X : (⟨3, ![2, 4096, 2048]⟩ : Shape).Idx → EReal) (A : (⟨2, ![2048, 1536]⟩ : Shape).Idx → EReal)
    (g : (⟨1, ![1536]⟩ : Shape).Idx → EReal) (B : (⟨2, ![1536, 3072]⟩ : Shape).Idx → EReal)
    (x0 : Vec Ideal S1x256x2048 .f32) (x1 : Vec Ideal S2048x1536 .bf16) (x2 : Vec Ideal S1536 .f32) (x3 : Vec Ideal S1536x3072 .bf16)
    (u : Fin 1) (r : Fin 256) (h : Fin 3072) (b : Fin 2) (s : Fin 4096)
    (hx : ∀ k : Fin 2048, x0 (ix3 (0 : Fin 1) r k) = X (ix3 b s k))
    (hA : ∀ (k : Fin 2048) (j : Fin 1536), x1 (ix2 k j) = A (ix2 k j)) (hg : ∀ j : Fin 1536, x2 (ix1 j) = g (ix1 j))
    (hB : ∀ (j : Fin 1536) (h : Fin 3072), x3 (ix2 j h) = B (ix2 j h)) :
    k0_pay2 (F := Ideal) x0 x1 x2 x3 (ix3 u r h) = Cert.Spec.query X A g B (ix3 b s h) := by
  rw [pay2_apply]
  have hd : ∀ j, downB x0 x1 r j = Cert.Spec.down X A b s j := fun j => by
    unfold downB Cert.Spec.down
    exact Finset.sum_congr rfl fun k _ => by rw [hx, hA]
  have hs : scaleB x0 x1 r = Cert.Spec.scale X A b s := by
    unfold scaleB Cert.Spec.scale
    simp only [hd]
  show _ = ∑ j : Fin 1536, Cert.Spec.normed X A g b s j * B (ix2 j h)
  refine Finset.sum_congr rfl fun j _ => ?_
  unfold Cert.Spec.normed
  rw [hd, hs, hg, hB]

/-- The same for the second store: its value at (u, r, h) is the specification's key-value array at (b, s, h). -/
theorem pay3_point (X : (⟨3, ![2, 4096, 2048]⟩ : Shape).Idx → EReal) (C : (⟨2, ![2048, 576]⟩ : Shape).Idx → EReal)
    (x0 : Vec Ideal S1x256x2048 .f32) (x4 : Vec Ideal S2048x576 .bf16)
    (u : Fin 1) (r : Fin 256) (h : Fin 576) (b : Fin 2) (s : Fin 4096)
    (hx : ∀ k : Fin 2048, x0 (ix3 (0 : Fin 1) r k) = X (ix3 b s k))
    (hC : ∀ (k : Fin 2048) (h : Fin 576), x4 (ix2 k h) = C (ix2 k h)) :
    k0_pay3 (F := Ideal) x0 x4 (ix3 u r h) = Cert.Spec.keyval X C (ix3 b s h) := by
  rw [pay3_apply]
  show _ = ∑ k : Fin 2048, X (ix3 b s k) * C (ix2 k h)
  refine Finset.sum_congr rfl fun k _ => ?_
  rw [hx, hC]

end Cert.KernelPayload

end
-- ==== Proof.KernelArrays.lean ====
/-
  The two arrays the pipelined region leaves, as whole-array functions of the program's arguments.

  The grid has 2 × 16 points; point (b, p) holds rows 256·p … 256·p + 255 of batch b. Its input windows are that block of
  x (window 0) and the whole weight arrays (windows 1–4: every point reads block (0, 0)), its output windows the same
  256 rows of the query array (window 5) and of the key-value array (window 6). The weight arrays the region reads are
  the program's weight arguments after a change of float format, which is the identity on the extended reals. So what
  point (b, p) writes back is block (b, p) of the specification's `query` / `keyval` of the arguments, the blocks tile
  both arrays (row s lies in the block of point (b, s / 256)), and each array ends holding the specification.
-/
import proofs.«123904_j41016937677183_1_alg».proof.Proof.Gen.KernelIdeal.Frame
import proofs.«123904_j41016937677183_1_alg».proof.Proof.KernelPayload
import Idealize.ShloMosaic.Lib.Pipeline.Value
import Idealize.ShloMosaic.Lib.StableHlo.Run

set_option maxRecDepth 16384

noncomputable section

namespace Cert.KernelArrays

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable [Cert.KernelIdeal.Facts]
open Cert.KernelIdeal.Facts₀

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-! ## The weight arrays as the region finds them -/

/-- The first weight array the region reads is the program's, its format changed. -/
theorem V_wa (c : Dev nD) : (V m c main_v0 : S2048x1536.Idx → EReal) = m ((c : Thread nD τ).loc main_arg3) := by
  show StableHlo.after hostOps0 (fun b => m (c, b)) (Proc.devRef .tc main_v0) = _
  after_results
  rfl

/-- The second weight array the region reads is the program's, its format changed. -/
theorem V_wb (c : Dev nD) : (V m c main_v1 : S1536x3072.Idx → EReal) = m ((c : Thread nD τ).loc main_arg5) := by
  show StableHlo.after hostOps0 (fun b => m (c, b)) (Proc.devRef .tc main_v1) = _
  after_results
  rfl

/-- The third weight array the region reads is the program's, its format changed. -/
theorem V_wc (c : Dev nD) : (V m c main_v2 : S2048x576.Idx → EReal) = m ((c : Thread nD τ).loc main_arg6) := by
  show StableHlo.after hostOps0 (fun b => m (c, b)) (Proc.devRef .tc main_v2) = _
  after_results
  rfl

/-! ## The index maps, decided over the grid -/

/-- The block of x and both output blocks move together, over batches 0..1 and row blocks 0..15; every weight block is
    block (0, 0). -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0 ∧ win0_5.index t (2 : Fin 3) = 0
    ∧ win0_5.index t (0 : Fin 3) ≤ 1 ∧ win0_5.index t (1 : Fin 3) ≤ 15
    ∧ win0_6.index t (0 : Fin 3) = win0_5.index t (0 : Fin 3) ∧ win0_6.index t (1 : Fin 3) = win0_5.index t (1 : Fin 3)
    ∧ win0_6.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- Every (batch, row block) is some point's. -/
theorem idx_onto5 : ∀ (q0 : Fin 2) (q1 : Fin 16), ∃ t : Fin cfg0.N, win0_5.index t = ![q0.val, q1.val, 0] :=
  (by decide +kernel : ∀ (q0 : Fin 2) (q1 : Fin 16), ∃ t : Fin grid0.N, win0_5.index t = ![q0.val, q1.val, 0])

/-! ## The input blocks at a point, entry by entry -/

/-- Row r of the block of x at point t is row (index₀, 256·index₁ + r) of x. -/
theorem xblk (c : Dev nD) (t : Fin cfg0.N) (r : Fin 256) (k : Fin 2048) (b : Fin 2) (s : Fin 4096)
    (hb : b.val = win0_5.index t (0 : Fin 3)) (hs : s.val = win0_5.index t (1 : Fin 3) * 256 + r.val) :
    iblk m c 0 t (ix3 (0 : Fin 1) r k) = m ((c : Thread nD τ).loc main_arg0) (ix3 b s k) := by
  obtain ⟨e0, e1, e2, -⟩ := idx_facts t
  show V m c main_arg0 (((cfg0.win 0).blk t).view.emb (ix3 (0 : Fin 1) r k)) = _
  rw [V_main_arg0]
  refine congrArg _ ?_
  funext a; apply Fin.ext
  match a with
  | ⟨0, _⟩ => show win0_0.index t (0 : Fin 3) * 1 + 1 * 0 = b.val; omega
  | ⟨1, _⟩ => show win0_0.index t (1 : Fin 3) * 256 + 1 * r.val = s.val; omega
  | ⟨2, _⟩ => show win0_0.index t (2 : Fin 3) * 2048 + 1 * k.val = k.val; omega

/-- The first weight block at any point is the program's first weight array. -/
theorem wablk (c : Dev nD) (t : Fin cfg0.N) (k : Fin 2048) (j : Fin 1536) :
    iblk m c 1 t (ix2 k j) = m ((c : Thread nD τ).loc main_arg3) (ix2 k j) := by
  obtain ⟨-, -, -, -, -, -, -, -, -, e0, e1, -⟩ := idx_facts t
  show V m c main_v0 (((cfg0.win 1).blk t).view.emb (ix2 k j)) = _
  rw [V_wa]
  refine congrArg _ ?_
  funext a; apply Fin.ext
  match a with
  | ⟨0, _⟩ => show win0_1.index t (0 : Fin 2) * 2048 + 1 * k.val = k.val; omega
  | ⟨1, _⟩ => show win0_1.index t (1 : Fin 2) * 1536 + 1 * j.val = j.val; omega

/-- The weight row at any point is the program's. -/
theorem gblk (c : Dev nD) (t : Fin cfg0.N) (j : Fin 1536) :
    iblk m c 2 t (ix1 j) = m ((c : Thread nD τ).loc main_arg4) (ix1 j) := by
  obtain ⟨-, -, -, -, -, -, -, -, -, -, -, e0, -⟩ := idx_facts t
  show V m c main_arg4 (((cfg0.win 2).blk t).view.emb (ix1 j)) = _
  rw [V_main_arg4]
  refine congrArg _ ?_
  funext a; apply Fin.ext
  match a with
  | ⟨0, _⟩ => show win0_2.index t (0 : Fin 1) * 1536 + 1 * j.val = j.val; omega

/-- The second weight block at any point is the program's second weight array. -/
theorem wbblk (c : Dev nD) (t : Fin cfg0.N) (j : Fin 1536) (h : Fin 3072) :
    iblk m c 3 t (ix2 j h) = m ((c : Thread nD τ).loc main_arg5) (ix2 j h) := by
  obtain ⟨-, -, -, -, -, -, -, -, -, -, -, -, e0, e1, -⟩ := idx_facts t
  show V m c main_v1 (((cfg0.win 3).blk t).view.emb (ix2 j h)) = _
  rw [V_wb]
  refine congrArg _ ?_
  funext a; apply Fin.ext
  match a with
  | ⟨0, _⟩ => show win0_3.index t (0 : Fin 2) * 1536 + 1 * j.val = j.val; omega
  | ⟨1, _⟩ => show win0_3.index t (1 : Fin 2) * 3072 + 1 * h.val = h.val; omega

/-- The third weight block at any point is the program's third weight array. -/
theorem wcblk (c : Dev nD) (t : Fin cfg0.N) (k : Fin 2048) (h : Fin 576) :
    iblk m c 4 t (ix2 k h) = m ((c : Thread nD τ).loc main_arg6) (ix2 k h) := by
  obtain ⟨-, -, -, -, -, -, -, -, -, -, -, -, -, -, e0, e1⟩ := idx_facts t
  show V m c main_v2 (((cfg0.win 4).blk t).view.emb (ix2 k h)) = _
  rw [V_wc]
  refine congrArg _ ?_
  funext a; apply Fin.ext
  match a with
  | ⟨0, _⟩ => show win0_4.index t (0 : Fin 2) * 2048 + 1 * k.val = k.val; omega
  | ⟨1, _⟩ => show win0_4.index t (1 : Fin 2) * 576 + 1 * h.val = h.val; omega

/-! ## What each point writes back -/

/-- The query array of the specification at the program's arguments. -/
abbrev Q (c : Dev nD) : S2x4096x3072.Idx → EReal :=
  Cert.Spec.query (m ((c : Thread nD τ).loc main_arg0)) (m ((c : Thread nD τ).loc main_arg3))
    (m ((c : Thread nD τ).loc main_arg4)) (m ((c : Thread nD τ).loc main_arg5))

/-- The key-value array of the specification at the program's arguments. -/
abbrev KV (c : Dev nD) : S2x4096x576.Idx → EReal :=
  Cert.Spec.keyval (m ((c : Thread nD τ).loc main_arg0)) (m ((c : Thread nD τ).loc main_arg6))

/-- What point t writes back through window 5 is block t of the query array. -/
theorem flushed5_eq (c : Dev nD) (t : Fin cfg0.N) :
    (dats m 0 c).flushed 5 t = ((cfg0.win 5).blk t).view.read (Elt Ideal) (Q m c) := by
  show (cfg0.win 5).cut (grid0.coords t) ((dats m 0 c).after 5 t) = _
  rw [after0_5]
  unfold out0_5
  rw [View.canon_unit_zero hz3]
  simp only [View.ld_unit_zero (S := S1x256x2048) hz3, View.ld_unit_zero (S := S2048x1536) hz2,
    View.ld_unit_zero (S := S1536) hz1, View.ld_unit_zero (S := S1536x3072) hz2]
  obtain ⟨-, -, -, e3, e4, e5, -⟩ := idx_facts t
  refine funext fun (y : S1x256x3072.Idx) => ?_
  obtain ⟨u, r, h, rfl⟩ : ∃ (u : Fin 1) (r : Fin 256) (h : Fin 3072), y = ix3 u r h := ⟨y 0, y 1, y 2, eq_ix3 y⟩
  have hu : u.val = 0 := by omega
  have hr : r.val < 256 := r.isLt
  have hemb : ((cfg0.win 5).blk t).view.emb (ix3 u r h)
      = ix3 (⟨win0_5.index t (0 : Fin 3), by omega⟩ : Fin 2) (⟨win0_5.index t (1 : Fin 3) * 256 + r.val, by omega⟩ : Fin 4096) h := by
    funext a; apply Fin.ext
    match a with
    | ⟨0, _⟩ => show win0_5.index t (0 : Fin 3) * 1 + 1 * u.val = win0_5.index t (0 : Fin 3); omega
    | ⟨1, _⟩ => show win0_5.index t (1 : Fin 3) * 256 + 1 * r.val = win0_5.index t (1 : Fin 3) * 256 + r.val; omega
    | ⟨2, _⟩ => show win0_5.index t (2 : Fin 3) * 3072 + 1 * h.val = h.val; omega
  show k0_pay2 (F := Ideal) (iblk m c 0 t) (iblk m c 1 t) (iblk m c 2 t) (iblk m c 3 t) (ix3 u r h)
    = Q m c (((cfg0.win 5).blk t).view.emb (ix3 u r h))
  rw [hemb]
  exact Cert.KernelPayload.pay2_point _ _ _ _ (iblk m c 0 t) (iblk m c 1 t) (iblk m c 2 t) (iblk m c 3 t) u r h _ _
    (fun k => xblk m c t r k _ _ rfl rfl) (wablk m c t) (gblk m c t) (wbblk m c t)

/-- What point t writes back through window 6 is block t of the key-value array. -/
theorem flushed6_eq (c : Dev nD) (t : Fin cfg0.N) :
    (dats m 0 c).flushed 6 t = ((cfg0.win 6).blk t).view.read (Elt Ideal) (KV m c) := by
  show (cfg0.win 6).cut (grid0.coords t) ((dats m 0 c).after 6 t) = _
  rw [after0_6]
  unfold out0_6
  rw [View.canon_unit_zero hz3]
  simp only [View.ld_unit_zero (S := S1x256x2048) hz3, View.ld_unit_zero (S := S2048x576) hz2]
  obtain ⟨-, -, -, -, e4, e5, e6, e7, e8, -⟩ := idx_facts t
  refine funext fun (y : S1x256x576.Idx) => ?_
  obtain ⟨u, r, h, rfl⟩ : ∃ (u : Fin 1) (r : Fin 256) (h : Fin 576), y = ix3 u r h := ⟨y 0, y 1, y 2, eq_ix3 y⟩
  have hu : u.val = 0 := by omega
  have hr : r.val < 256 := r.isLt
  have hemb : ((cfg0.win 6).blk t).view.emb (ix3 u r h)
      = ix3 (⟨win0_5.index t (0 : Fin 3), by omega⟩ : Fin 2) (⟨win0_5.index t (1 : Fin 3) * 256 + r.val, by omega⟩ : Fin 4096) h := by
    funext a; apply Fin.ext
    match a with
    | ⟨0, _⟩ => show win0_6.index t (0 : Fin 3) * 1 + 1 * u.val = win0_5.index t (0 : Fin 3); omega
    | ⟨1, _⟩ => show win0_6.index t (1 : Fin 3) * 256 + 1 * r.val = win0_5.index t (1 : Fin 3) * 256 + r.val; omega
    | ⟨2, _⟩ => show win0_6.index t (2 : Fin 3) * 576 + 1 * h.val = h.val; omega
  show k0_pay3 (F := Ideal) (iblk m c 0 t) (iblk m c 4 t) (ix3 u r h)
    = KV m c (((cfg0.win 6).blk t).view.emb (ix3 u r h))
  rw [hemb]
  exact Cert.KernelPayload.pay3_point _ _ (iblk m c 0 t) (iblk m c 4 t) u r h _ _
    (fun k => xblk m c t r k _ _ rfl rfl) (wcblk m c t)

/-! ## The blocks tile the arrays -/

/-- An index of the query array is in point t's block iff each coordinate is in the block's range on its axis. -/
theorem mem_blk5 (t : Fin cfg0.N) (i : S2x4096x3072.Idx) :
    i ∈ ((cfg0.win 5).blk t).view.set ↔ ∀ a : Fin 3, win0_5.index t a * S1x256x3072.size a ≤ (i a).val
      ∧ (i a).val < win0_5.index t a * S1x256x3072.size a + S1x256x3072.size a := by
  show i ∈ ((View.whole main_v3_0).slice (win0_5.rect t)).set ↔ _
  rw [View.set_slice_whole, Rect.mem_set_unit]
  exact Iff.rfl

/-- The same for the key-value array. -/
theorem mem_blk6 (t : Fin cfg0.N) (i : S2x4096x576.Idx) :
    i ∈ ((cfg0.win 6).blk t).view.set ↔ ∀ a : Fin 3, win0_6.index t a * S1x256x576.size a ≤ (i a).val
      ∧ (i a).val < win0_6.index t a * S1x256x576.size a + S1x256x576.size a := by
  show i ∈ ((View.whole main_v3_1).slice (win0_6.rect t)).set ↔ _
  rw [View.set_slice_whole, Rect.mem_set_unit]
  exact Iff.rfl

/-- Row s of batch b of the query array lies in the block of the point (b, s / 256). -/
theorem cover5 (i : S2x4096x3072.Idx) :
    ∃ t : Fin cfg0.N, (cfg0.win 5).flush t = true ∧ i ∈ ((cfg0.win 5).blk t).view.set := by
  have hi0 : (i 0).val < 2 := (i 0).isLt
  have hi1 : (i 1).val < 4096 := (i 1).isLt
  have hi2 : (i 2).val < 3072 := (i 2).isLt
  obtain ⟨t, ht⟩ := idx_onto5 ⟨(i 0).val, hi0⟩ ⟨(i 1).val / 256, by omega⟩
  have q0 : win0_5.index t (0 : Fin 3) = (i 0).val := congrFun ht 0
  have q1 : win0_5.index t (1 : Fin 3) = (i 1).val / 256 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 3072 ≤ (i 2).val ∧ (i 2).val < win0_5.index t (2 : Fin 3) * 3072 + 3072; omega

/-- The same for the key-value array. -/
theorem cover6 (i : S2x4096x576.Idx) :
    ∃ t : Fin cfg0.N, (cfg0.win 6).flush t = true ∧ i ∈ ((cfg0.win 6).blk t).view.set := by
  have hi0 : (i 0).val < 2 := (i 0).isLt
  have hi1 : (i 1).val < 4096 := (i 1).isLt
  have hi2 : (i 2).val < 576 := (i 2).isLt
  obtain ⟨t, ht⟩ := idx_onto5 ⟨(i 0).val, hi0⟩ ⟨(i 1).val / 256, by omega⟩
  obtain ⟨-, -, -, -, -, -, e6, e7, e8, -⟩ := idx_facts t
  have q0 : win0_5.index t (0 : Fin 3) = (i 0).val := congrFun ht 0
  have q1 : win0_5.index t (1 : Fin 3) = (i 1).val / 256 := congrFun ht 1
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 576 ≤ (i 2).val ∧ (i 2).val < win0_6.index t (2 : Fin 3) * 576 + 576; omega

/-! ## The arrays after the region -/

/-- The query array after the region is the specification's, of the program's arguments. -/
theorem final5 (c : Dev nD) : (dats m 0 c).arrAt 5 cfg0.N = Q m c :=
  (dats m 0 c).arrAt_eq_of_cover 5 (Q m c) (fun t _ => flushed5_eq m c t) cover5

/-- The key-value array after the region is the specification's, of the program's arguments. -/
theorem final6 (c : Dev nD) : (dats m 0 c).arrAt 6 cfg0.N = KV m c :=
  (dats m 0 c).arrAt_eq_of_cover 6 (KV m c) (fun t _ => flushed6_eq m c t) cover6

end Cert.KernelArrays

end
-- ==== Proof.TailOps.lean ====
/-
  The part both programs share after the two projections: from the query array q[b, s, ·] of width 3072 and the
  key-value array kv[b, s, ·] of width 576 to the four results, as pure functions of arrays on the extended reals.

  q is read as 16 heads of width 192. In every head
    * columns 0 … 127 are kept as they are (the first result);
    * columns 128 … 191 are read as 32 pairs (xr, xi) and each pair is rotated by the angle whose cosine c = cos[s, p]
      and sine t = sin[s, p] are given for the position s and the pair p:
          yr = xr · c − xi · t,      yi = xr · t + xi · c,
      the rotated pairs laid out again as 64 columns (the second result).
  Of kv, columns 0 … 511 are kept (the third result); columns 512 … 575, as a single head, are rotated in the same way
  (the fourth result).

  Each definition below is the composition of the array operations that compute it, in the order the programs apply
  them: a reshape to heads, slices, a reshape to pairs, the slices of the two pair components, the broadcasts of the
  cosine and sine tables over batch and head, the four products, the difference and the sum, and the interleaving of the
  two components by concatenation along a new last axis followed by a reshape.
-/
import proofs.«123904_j41016937677183_1_alg».proof.KernelIdeal
import Idealize.ShloMosaic.PureOps.Ideal

noncomputable section

namespace Cert.TailOps

open Cert.KernelIdeal Idealize.ShloMosaic
open Cert.KernelIdeal.Facts₀

variable [Cert.KernelIdeal.Facts]

/-- The first result: q read as 16 heads of width 192, columns 0 … 127 of every head. -/
def nope (q : FVec Ideal S2x4096x3072 .f32) : FVec Ideal S2x4096x16x128 .f32 :=
  have v4 : FVec Ideal S2x4096x16x192 .f32 := shapeCast S2x4096x16x192 q shapeCasts_S2x4096x3072_S2x4096x16x192
  extractStridedSlice S2x4096x16x128 ![0, 0, 0, 0] v4 slices_S2x4096x16x192_S2x4096x16x128_0_0_0_0

/-- The second result: columns 128 … 191 of every head of q, as 32 pairs (xr, xi), each rotated by the angle with
    cosine cos[s, p] and sine sin[s, p]: (xr · c − xi · t, xr · t + xi · c), laid out again as 64 columns. -/
def ropeQ (q : FVec Ideal S2x4096x3072 .f32) (cos sin : FVec Ideal S4096x32 .f32) : FVec Ideal S2x4096x16x64 .f32 :=
  have v4 : FVec Ideal S2x4096x16x192 .f32 := shapeCast S2x4096x16x192 q shapeCasts_S2x4096x3072_S2x4096x16x192
  have v6 : FVec Ideal S2x4096x16x64 .f32 :=
    extractStridedSlice S2x4096x16x64 ![0, 0, 0, 128] v4 slices_S2x4096x16x192_S2x4096x16x64_0_0_0_128
  have v7 : FVec Ideal S2x4096x16x32x2 .f32 := shapeCast S2x4096x16x32x2 v6 shapeCasts_S2x4096x16x64_S2x4096x16x32x2
  have v8 : FVec Ideal S2x4096x16x32x1 .f32 :=
    extractStridedSlice S2x4096x16x32x1 ![0, 0, 0, 0, 0] v7 slices_S2x4096x16x32x2_S2x4096x16x32x1_0_0_0_0_0
  have v9 : FVec Ideal S2x4096x16x32 .f32 := shapeCast S2x4096x16x32 v8 shapeCasts_S2x4096x16x32x1_S2x4096x16x32
  have v10 : FVec Ideal S2x4096x16x32x1 .f32 :=
    extractStridedSlice S2x4096x16x32x1 ![0, 0, 0, 0, 1] v7 slices_S2x4096x16x32x2_S2x4096x16x32x1_0_0_0_0_1
  have v11 : FVec Ideal S2x4096x16x32 .f32 := shapeCast S2x4096x16x32 v10 shapeCasts_S2x4096x16x32x1_S2x4096x16x32
  have v12 : FVec Ideal S1x4096x1x32 .f32 := broadcastInDim S1x4096x1x32 ![1, 3] bcast_S4096x32_S1x4096x1x32_1_3 cos
  have v13 : FVec Ideal S1x4096x1x32 .f32 := broadcastInDim S1x4096x1x32 ![1, 3] bcast_S4096x32_S1x4096x1x32_1_3 sin
  have v14 : FVec Ideal S2x4096x16x32 .f32 :=
    broadcastInDim S2x4096x16x32 ![0, 1, 2, 3] bcast_S1x4096x1x32_S2x4096x16x32_0_1_2_3 v12
  have v15 : FVec Ideal S2x4096x16x32 .f32 := mulf v9 v14
  have v16 : FVec Ideal S2x4096x16x32 .f32 :=
    broadcastInDim S2x4096x16x32 ![0, 1, 2, 3] bcast_S1x4096x1x32_S2x4096x16x32_0_1_2_3 v13
  have v17 : FVec Ideal S2x4096x16x32 .f32 := mulf v11 v16
  have v18 : FVec Ideal S2x4096x16x32 .f32 := subf v15 v17
  have v20 : FVec Ideal S2x4096x16x32 .f32 := mulf v9 v16
  have v22 : FVec Ideal S2x4096x16x32 .f32 := mulf v11 v14
  have v23 : FVec Ideal S2x4096x16x32 .f32 := addf v20 v22
  have v24 : FVec Ideal S2x4096x16x32x1 .f32 :=
    broadcastInDim S2x4096x16x32x1 ![0, 1, 2, 3] bcast_S2x4096x16x32_S2x4096x16x32x1_0_1_2_3 v18
  have v25 : FVec Ideal S2x4096x16x32x1 .f32 :=
    broadcastInDim S2x4096x16x32x1 ![0, 1, 2, 3] bcast_S2x4096x16x32_S2x4096x16x32x1_0_1_2_3 v23
  have v26 : FVec Ideal S2x4096x16x32x2 .f32 :=
    concatenate S2x4096x16x32x2 4 [⟨S2x4096x16x32x1, v24⟩, ⟨S2x4096x16x32x1, v25⟩]
      concatenates_S2x4096x16x32x1_S2x4096x16x32x1_S2x4096x16x32x2_d4
  shapeCast S2x4096x16x64 v26 shapeCasts_S2x4096x16x32x2_S2x4096x16x64

/-- The third result: columns 0 … 511 of kv. -/
def kvLow (kv : FVec Ideal S2x4096x576 .f32) : FVec Ideal S2x4096x512 .f32 :=
  extractStridedSlice S2x4096x512 ![0, 0, 0] kv slices_S2x4096x576_S2x4096x512_0_0_0

/-- The fourth result: columns 512 … 575 of kv as a single head of 32 pairs (xr, xi), each rotated by the angle with
    cosine cos[s, p] and sine sin[s, p]: (xr · c − xi · t, xr · t + xi · c), laid out again as 64 columns. -/
def ropeK (kv : FVec Ideal S2x4096x576 .f32) (cos sin : FVec Ideal S4096x32 .f32) : FVec Ideal S2x4096x1x64 .f32 :=
  have v29 : FVec Ideal S2x4096x64 .f32 :=
    extractStridedSlice S2x4096x64 ![0, 0, 512] kv slices_S2x4096x576_S2x4096x64_0_0_512
  have v30 : FVec Ideal S2x4096x1x64 .f32 := broadcastInDim S2x4096x1x64 ![0, 1, 3] bcast_S2x4096x64_S2x4096x1x64_0_1_3 v29
  have v31 : FVec Ideal S2x4096x1x32x2 .f32 := shapeCast S2x4096x1x32x2 v30 shapeCasts_S2x4096x1x64_S2x4096x1x32x2
  have v32 : FVec Ideal S2x4096x1x32x1 .f32 :=
    extractStridedSlice S2x4096x1x32x1 ![0, 0, 0, 0, 0] v31 slices_S2x4096x1x32x2_S2x4096x1x32x1_0_0_0_0_0
  have v33 : FVec Ideal S2x4096x1x32 .f32 := shapeCast S2x4096x1x32 v32 shapeCasts_S2x4096x1x32x1_S2x4096x1x32
  have v34 : FVec Ideal S2x4096x1x32x1 .f32 :=
    extractStridedSlice S2x4096x1x32x1 ![0, 0, 0, 0, 1] v31 slices_S2x4096x1x32x2_S2x4096x1x32x1_0_0_0_0_1
  have v35 : FVec Ideal S2x4096x1x32 .f32 := shapeCast S2x4096x1x32 v34 shapeCasts_S2x4096x1x32x1_S2x4096x1x32
  have v36 : FVec Ideal S1x4096x1x32 .f32 := broadcastInDim S1x4096x1x32 ![1, 3] bcast_S4096x32_S1x4096x1x32_1_3 cos
  have v37 : FVec Ideal S1x4096x1x32 .f32 := broadcastInDim S1x4096x1x32 ![1, 3] bcast_S4096x32_S1x4096x1x32_1_3 sin
  have v38 : FVec Ideal S2x4096x1x32 .f32 :=
    broadcastInDim S2x4096x1x32 ![0, 1, 2, 3] bcast_S1x4096x1x32_S2x4096x1x32_0_1_2_3 v36
  have v39 : FVec Ideal S2x4096x1x32 .f32 := mulf v33 v38
  have v40 : FVec Ideal S2x4096x1x32 .f32 :=
    broadcastInDim S2x4096x1x32 ![0, 1, 2, 3] bcast_S1x4096x1x32_S2x4096x1x32_0_1_2_3 v37
  have v41 : FVec Ideal S2x4096x1x32 .f32 := mulf v35 v40
  have v42 : FVec Ideal S2x4096x1x32 .f32 := subf v39 v41
  have v44 : FVec Ideal S2x4096x1x32 .f32 := mulf v33 v40
  have v46 : FVec Ideal S2x4096x1x32 .f32 := mulf v35 v38
  have v47 : FVec Ideal S2x4096x1x32 .f32 := addf v44 v46
  have v48 : FVec Ideal S2x4096x1x32x1 .f32 :=
    broadcastInDim S2x4096x1x32x1 ![0, 1, 2, 3] bcast_S2x4096x1x32_S2x4096x1x32x1_0_1_2_3 v42
  have v49 : FVec Ideal S2x4096x1x32x1 .f32 :=
    broadcastInDim S2x4096x1x32x1 ![0, 1, 2, 3] bcast_S2x4096x1x32_S2x4096x1x32x1_0_1_2_3 v47
  have v50 : FVec Ideal S2x4096x1x32x2 .f32 :=
    concatenate S2x4096x1x32x2 4 [⟨S2x4096x1x32x1, v48⟩, ⟨S2x4096x1x32x1, v49⟩]
      concatenates_S2x4096x1x32x1_S2x4096x1x32x1_S2x4096x1x32x2_d4
  shapeCast S2x4096x1x64 v50 shapeCasts_S2x4096x1x32x2_S2x4096x1x64

end Cert.TailOps

end
-- ==== Proof.KernelTail.lean ====
/-
  The kernel program's run, read at its four results.

  After the pipelined region the query array and the key-value array hold the specification's `query` and `keyval`
  of the arguments. The operations that follow the region read those two arrays and the cosine and sine tables, which
  no operation writes, and compute the four results: the unrotated head columns, the rotated head columns, the
  low key-value columns and the rotated key columns. Composing the operations one after the other gives exactly the four
  tail functions applied to the specification's arrays; the argument arrays end as they were launched.
-/
import proofs.«123904_j41016937677183_1_alg».proof.Proof.Gen.KernelIdeal.Frame
import proofs.«123904_j41016937677183_1_alg».proof.Proof.KernelArrays
import proofs.«123904_j41016937677183_1_alg».proof.Proof.TailOps
import Idealize.ShloMosaic.Lib.Pipeline.Value
import Idealize.ShloMosaic.Lib.StableHlo.Run

set_option maxRecDepth 16384

noncomputable section

namespace Cert.KernelTail

open Cert.KernelIdeal Cert.KernelIdeal.Gen Cert.KernelArrays
open Idealize.ShloMosaic Idealize.ShloMosaic.TcCoe Idealize.ShloMosaic.Tactic Idealize.ShloMosaic.ValueIdx Idealize.ShloMosaic.StableHlo
open Idealize.SL Idealize.SL.Sem
open Idealize.ShloMosaic.Pipeline (Dat Cfg Window)

variable [Cert.KernelIdeal.Facts]
open Cert.KernelIdeal.Facts₀

variable (m : (ℓ : Loc nD τ sig) → Buf (Elt Ideal) ℓ)

/-! ## What the operations after the region read -/

/-- The query array as the region leaves it. -/
theorem arr_q (c : Dev nD) :
    Pipeline.withArrays (cfgs 0).spec c (V0 m c) (fun w => (dats m 0 c).arrAt w (cfgs 0).N) (Proc.devRef .tc main_v3_0) = Q m c :=
  (Pipeline.withArrays_arr spec0 launch0.win.arr_inj c _ _ 5).trans (final5 m c)

/-- The key-value array as the region leaves it. -/
theorem arr_kv (c : Dev nD) :
    Pipeline.withArrays (cfgs 0).spec c (V0 m c) (fun w => (dats m 0 c).arrAt w (cfgs 0).N) (Proc.devRef .tc main_v3_1) = KV m c :=
  (Pipeline.withArrays_arr spec0 launch0.win.arr_inj c _ _ 6).trans (final6 m c)

/-- The cosine table is no array of the region and nothing before it writes it: it is read as launched. -/
theorem arr_cos (c : Dev nD) :
    Pipeline.withArrays (cfgs 0).spec c (V0 m c) (fun w => (dats m 0 c).arrAt w (cfgs 0).N) (Proc.devRef .tc main_arg1)
      = m ((c : Thread nD τ).loc main_arg1) :=
  (Pipeline.withArrays_of_ne _ c (V0 m c) _ main_arg1 (by exact (by decide : ∀ w, Pipeline.arrRef spec0 w ≠ main_arg1))).trans
    (V_main_arg1 m c)

/-- The sine table likewise. -/
theorem arr_sin (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)

/-! ## The four results -/

/-- The first result: the unrotated head columns of the query array. -/
theorem tail_nope (c : Dev nD) :
    Pipeline.afterTail₀ cfgs (dats m) 0 (V0 m) [hostOps1] c main_v5 = Cert.TailOps.nope (Q m c) := by
  unfold Pipeline.afterTail₀
  show StableHlo.after hostOps1 _ (Proc.devRef .tc main_v5) = _
  after_results_simp
  rw [arr_q]
  rfl

set_option maxHeartbeats 8000000 in
/-- The operations after the region, from any contents of the buffers, leave in the second result's buffer the rotation
    of what the query array's buffer and the two tables' buffers held: the composition of the operations, one by one. -/
theorem after_ropeQ (F : Valuation τ sig (Elt Ideal)) :
    StableHlo.after hostOps1 F (Proc.devRef .tc main_v27)
      = Cert.TailOps.ropeQ (F (Proc.devRef .tc main_v3_0)) (F (Proc.devRef .tc main_arg1)) (F (Proc.devRef .tc main_arg2)) := by
  after_results_simp <;> rfl

/-- The second result: the rotated head columns of the query array. -/
theorem tail_ropeQ (c : Dev nD) :
    Pipeline.afterTail₀ cfgs (dats m) 0 (V0 m) [hostOps1] c main_v27
      = Cert.TailOps.ropeQ (Q m c) (m ((c : Thread nD τ).loc main_arg1)) (m ((c : Thread nD τ).loc main_arg2)) := by
  unfold Pipeline.afterTail₀
  show StableHlo.after hostOps1 _ (Proc.devRef .tc main_v27) = _
  rw [after_ropeQ, arr_q, arr_cos, arr_sin]

/-- The third result: the low columns of the key-value array. -/
theorem tail_kvLow (c : Dev nD) :
    Pipeline.afterTail₀ cfgs (dats m) 0 (V0 m) [hostOps1] c main_v28 = Cert.TailOps.kvLow (KV m c) := by
  unfold Pipeline.afterTail₀
  show StableHlo.after hostOps1 _ (Proc.devRef .tc main_v28) = _
  after_results_simp
  rw [arr_kv]
  rfl

set_option maxHeartbeats 8000000 in
/-- Likewise for the fourth result: the rotation of what the key-value array's buffer and the two tables' buffers held. -/
theorem after_ropeK (F : Valuation τ sig (Elt Ideal)) :
    StableHlo.after hostOps1 F (Proc.devRef .tc main_v51)
      = Cert.TailOps.ropeK (F (Proc.devRef .tc main_v3_1)) (F (Proc.devRef .tc main_arg1)) (F (Proc.devRef .tc main_arg2)) := by
  after_results_simp <;> rfl

/-- The fourth result: the rotated key columns of the key-value array. -/
theorem tail_ropeK (c : Dev nD) :
    Pipeline.afterTail₀ cfgs (dats m) 0 (V0 m) [hostOps1] c main_v51
      = Cert.TailOps.ropeK (KV m c) (m ((c : Thread nD τ).loc main_arg1)) (m ((c : Thread nD τ).loc main_arg2)) := by
  unfold Pipeline.afterTail₀
  show StableHlo.after hostOps1 _ (Proc.devRef .tc main_v51) = _
  rw [after_ropeK, arr_kv, arr_cos, arr_sin]

/-! ## The run -/

/-- Every weakly fair execution of the kernel program terminates with its four results at the tail functions of the
    specification's arrays and its arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v5) = Cert.TailOps.nope (Q m c)
      ∧ r.2.mem ((c.tc : Thread nD τ).loc main_v27)
          = Cert.TailOps.ropeQ (Q m c) (m ((c.tc : Thread nD τ).loc main_arg1)) (m ((c.tc : Thread nD τ).loc main_arg2))
      ∧ r.2.mem ((c.tc : Thread nD τ).loc main_v28) = Cert.TailOps.kvLow (KV m c)
      ∧ r.2.mem ((c.tc : Thread nD τ).loc main_v51)
          = Cert.TailOps.ropeK (KV m c) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v5 (Pipeline.mem_restRefs_of main_v5 (by decide) (by decide))).trans (tail_nope m c),
      ((h c).2 main_v27 (Pipeline.mem_restRefs_of main_v27 (by decide) (by decide))).trans (tail_ropeQ m c),
      ((h c).2 main_v28 (Pipeline.mem_restRefs_of main_v28 (by decide) (by decide))).trans (tail_kvLow m c),
      ((h c).2 main_v51 (Pipeline.mem_restRefs_of main_v51 (by decide) (by decide))).trans (tail_ropeK m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelTail

end
-- ==== Proof.RefIsSpec.lean ====
/-
  The reference program computes the specification, entry by entry, on the extended reals.

  The reference builds its two results one array operation at a time. Reading each operation at an index:
    * its first contraction, at (b, s, j), is  Σ_k x[b, s, k] · A[k, j]  = down(b, s, j);
    * squaring, summing over j from the initial value 0, dividing by the word 1536, adding the word ε and taking the
      reciprocal square root gives, at (b, s, 0), rsqrt( (Σ_j down(b, s, j)²) / 1536 + ε ) = scale(b, s);
    * broadcasting that column along j, multiplying by the first contraction and then by g broadcast along (b, s)
      gives, at (b, s, j), (down(b, s, j) · scale(b, s)) · g[j] = normed(b, s, j);
    * the second contraction, at (b, s, h), is  Σ_j normed(b, s, j) · B[j, h] = query(b, s, h);
    * the contraction of x with C, at (b, s, r), is  Σ_k x[b, s, k] · C[k, r] = keyval(b, s, r).
  Each step is an equality of the operation's element with the specification's expression; the only arithmetic used
  is 0 + t = t for the sum's initial value. The words 1536 and ε are carried along unevaluated.
-/
import proofs.«123904_j41016937677183_1_alg».proof.Proof.Gen.ReferenceIdeal.Read
import proofs.«123904_j41016937677183_1_alg».proof.Proof.Spec
import Idealize.ShloMosaic.Lib.ValueIdx
import Idealize.ShloMosaic.PureOps.Ideal.Laws

noncomputable section

open scoped BigOperators

namespace Cert.RefIsSpec

open Cert.ReferenceIdeal Cert.ReferenceIdeal.Gen Idealize.ShloMosaic Idealize.ShloMosaic.TcCoe Idealize.SL.Sem Idealize.ShloMosaic.StableHlo
open Idealize.ShloMosaic.ValueIdx

/-- The first contraction at (b, s, j) is Σ_k x[b, s, k] · A[k, j]. -/
theorem down_eq (x0 : (⟨S2x4096x2048, .f32⟩ : BufTy).Contents (Elt Ideal))
    (x3 : (⟨S2048x1536, .f32⟩ : BufTy).Contents (Elt Ideal)) (i : S2x4096x1536.Idx) :
    Read.val_main_v0 (F := Ideal) x0 x3 i = Cert.Spec.down x0 x3 (i 0) (i 1) (i 2) := by
  rw [Read.val_main_v0_apply]
  unfold Cert.Spec.down
  refine Finset.sum_congr rfl fun k _ => ?_
  have el : Read.lidx_main_v0 i k = ix3 (i 0) (i 1) k := funext fun a => Fin.ext (by
    match a with
    | ⟨0, _⟩ => rfl
    | ⟨1, _⟩ => rfl
    | ⟨2, _⟩ => rfl)
  have er : Read.ridx_main_v0 i k = ix2 k (i 2) := funext fun a => Fin.ext (by
    match a with
    | ⟨0, _⟩ => rfl
    | ⟨1, _⟩ => rfl)
  rw [el, er]
  rfl

/-- The reciprocal root-mean-square column at (b, s, 0): the squares of the first contraction summed over j from 0,
    divided by the word 1536, plus the word ε, under rsqrt. -/
theorem scale_eq (x0 : (⟨S2x4096x2048, .f32⟩ : BufTy).Contents (Elt Ideal))
    (x3 : (⟨S2048x1536, .f32⟩ : BufTy).Contents (Elt Ideal)) (m : S2x4096x1.Idx) :
    Read.val_main_v8 (F := Ideal) x0 x3 m = Cert.Spec.scale x0 x3 (m 0) (m 1) := by
  have hs : ∀ k : Fin 1536, Read.val_main_v1 (F := Ideal) x0 x3 (Read.idx_main_v2 (Read.idx_main_v3 m) k)
      = Cert.Spec.down x0 x3 (m 0) (m 1) k * Cert.Spec.down x0 x3 (m 0) (m 1) k := by
    intro k
    rw [Read.val_main_v1_apply, Ideal.mulf_def, down_eq]
    rfl
  rw [Read.val_main_v8_apply, Read.val_main_v7_apply, Read.val_main_v5_apply, Read.val_main_v6_apply,
    Read.val_main_v3_apply, Read.val_main_v4_apply, Read.val_main_v2_apply, Read.val_main_cst_apply,
    Read.val_main_cst_0_apply, Read.val_main_cst_1_apply, Finset.sum_congr rfl fun k _ => hs k]
  simp only [Ideal.hostUnary_rsqrt_def, Ideal.addf_def, Ideal.hostDivf_def, Ideal.ofBits_def,
    Ideal.ofBits_zero_f32, zero_add]
  rfl

/-- The normalised, weighted row at (b, s, j): (down(b, s, j) · scale(b, s)) · g[j]. -/
theorem normed_eq (x0 : (⟨S2x4096x2048, .f32⟩ : BufTy).Contents (Elt Ideal))
    (x3 : (⟨S2048x1536, .f32⟩ : BufTy).Contents (Elt Ideal))
    (x4 : (⟨S1536, .f32⟩ : BufTy).Contents (Elt Ideal)) (j : S2x4096x1536.Idx) :
    Read.val_main_v13 (F := Ideal) x0 x3 x4 j = Cert.Spec.normed x0 x3 x4 (j 0) (j 1) (j 2) := by
  have eg : Read.idx_main_v11 (Read.idx_main_v12 j) = ix1 (j 2) := funext fun a => Fin.ext (by
    match a with
    | ⟨0, _⟩ => rfl)
  rw [Read.val_main_v13_apply, Read.val_main_v10_apply, Read.val_main_v12_apply, Read.val_main_v11_apply,
    Read.val_main_v9_apply, scale_eq, down_eq, eg]
  simp only [Ideal.mulf_def]
  rfl

/-- The reference's first result is the query array of the specification. -/
theorem query_eq (x0 : (⟨Cert.ReferenceIdeal.S2x4096x2048, .f32⟩ : BufTy).Contents (Elt Ideal))
    (x3 : (⟨S2048x1536, .f32⟩ : BufTy).Contents (Elt Ideal))
    (x4 : (⟨S1536, .f32⟩ : BufTy).Contents (Elt Ideal))
    (x5 : (⟨S1536x3072, .f32⟩ : BufTy).Contents (Elt Ideal)) :
    Cert.ReferenceIdeal.Read.val_main_v14 (F := Ideal) x0 x3 x4 x5 = Cert.Spec.query x0 x3 x4 x5 := by
  funext i
  rw [Read.val_main_v14_apply]
  unfold Cert.Spec.query
  refine Finset.sum_congr rfl fun k _ => ?_
  have er : Read.ridx_main_v14 i k = ix2 k (i 2) := funext fun a => Fin.ext (by
    match a with
    | ⟨0, _⟩ => rfl
    | ⟨1, _⟩ => rfl)
  rw [normed_eq, er]
  rfl

/-- The reference's second result is the key-value array of the specification. -/
theorem keyval_eq (x0 : (⟨Cert.ReferenceIdeal.S2x4096x2048, .f32⟩ : BufTy).Contents (Elt Ideal))
    (x6 : (⟨S2048x576, .f32⟩ : BufTy).Contents (Elt Ideal)) :
    Cert.ReferenceIdeal.Read.val_main_v39 (F := Ideal) x0 x6 = Cert.Spec.keyval x0 x6 := by
  funext i
  rw [Read.val_main_v39_apply]
  unfold Cert.Spec.keyval
  refine Finset.sum_congr rfl fun k _ => ?_
  have el : Read.lidx_main_v39 i k = ix3 (i 0) (i 1) k := funext fun a => Fin.ext (by
    match a with
    | ⟨0, _⟩ => rfl
    | ⟨1, _⟩ => rfl
    | ⟨2, _⟩ => rfl)
  have er : Read.ridx_main_v39 i k = ix2 k (i 2) := funext fun a => Fin.ext (by
    match a with
    | ⟨0, _⟩ => rfl
    | ⟨1, _⟩ => rfl)
  rw [el, er]
  rfl

end Cert.RefIsSpec

end
-- ==== Proof.RefTail.lean ====
/-
  The reference's four results are the shared tail applied to its query and key-value arrays.

  After its two projections the reference applies, one array operation at a time, exactly the operations that make up
  the four tail functions: the reshape of the query array to heads and the slice of columns 0 … 127; the slice of
  columns 128 … 191, its reshape to pairs, the two component slices, the broadcasts of the cosine and sine tables,
  the products xr · c, xi · t, xr · t, xi · c, their difference and sum, the concatenation of the two components and
  the reshape back; and the same for the key-value array with its single head. The two programs name the same
  shapes by the same literals, and the side conditions of the layout operations are propositions, so each result
  stage and the corresponding tail function applied to the earlier stage are the same term.
-/
import proofs.«123904_j41016937677183_1_alg».proof.Proof.TailOps
import proofs.«123904_j41016937677183_1_alg».proof.Proof.Gen.ReferenceIdeal.Read

noncomputable section

namespace Cert.RefTail

open Cert.ReferenceIdeal Cert.ReferenceIdeal.Gen Idealize.ShloMosaic

variable [Cert.KernelIdeal.Facts] [Cert.ReferenceIdeal.Facts]

/-- The reference's first result is columns 0 … 127 of every head of its query array. -/
theorem ref_nope (x0 : (⟨S2x4096x2048, .f32⟩ : BufTy).Contents (Elt Ideal))
    (x3 : (⟨S2048x1536, .f32⟩ : BufTy).Contents (Elt Ideal))
    (x4 : (⟨S1536, .f32⟩ : BufTy).Contents (Elt Ideal))
    (x5 : (⟨S1536x3072, .f32⟩ : BufTy).Contents (Elt Ideal)) :
    Cert.ReferenceIdeal.Read.val_main_v16 (F := Ideal) x0 x3 x4 x5
      = Cert.TailOps.nope (Cert.ReferenceIdeal.Read.val_main_v14 (F := Ideal) x0 x3 x4 x5) := rfl

/-- The reference's second result is the pairwise rotation of columns 128 … 191 of every head of its query array. -/
theorem ref_ropeQ (x0 : (⟨S2x4096x2048, .f32⟩ : BufTy).Contents (Elt Ideal))
    (x1 x2 : (⟨S4096x32, .f32⟩ : BufTy).Contents (Elt Ideal))
    (x3 : (⟨S2048x1536, .f32⟩ : BufTy).Contents (Elt Ideal))
    (x4 : (⟨S1536, .f32⟩ : BufTy).Contents (Elt Ideal))
    (x5 : (⟨S1536x3072, .f32⟩ : BufTy).Contents (Elt Ideal)) :
    Cert.ReferenceIdeal.Read.val_main_v38 (F := Ideal) x0 x1 x2 x3 x4 x5
      = Cert.TailOps.ropeQ (Cert.ReferenceIdeal.Read.val_main_v14 (F := Ideal) x0 x3 x4 x5) x1 x2 := rfl

/-- The reference's third result is columns 0 … 511 of its key-value array. -/
theorem ref_kvLow (x0 : (⟨S2x4096x2048, .f32⟩ : BufTy).Contents (Elt Ideal))
    (x6 : (⟨S2048x576, .f32⟩ : BufTy).Contents (Elt Ideal)) :
    Cert.ReferenceIdeal.Read.val_main_v40 (F := Ideal) x0 x6
      = Cert.TailOps.kvLow (Cert.ReferenceIdeal.Read.val_main_v39 (F := Ideal) x0 x6) := rfl

/-- The reference's fourth result is the pairwise rotation of columns 512 … 575 of its key-value array. -/
theorem ref_ropeK (x0 : (⟨S2x4096x2048, .f32⟩ : BufTy).Contents (Elt Ideal))
    (x1 x2 : (⟨S4096x32, .f32⟩ : BufTy).Contents (Elt Ideal))
    (x6 : (⟨S2048x576, .f32⟩ : BufTy).Contents (Elt Ideal)) :
    Cert.ReferenceIdeal.Read.val_main_v63 (F := Ideal) x0 x1 x2 x6
      = Cert.TailOps.ropeK (Cert.ReferenceIdeal.Read.val_main_v39 (F := Ideal) x0 x6) x1 x2 := rfl

end Cert.RefTail

end
-- ==== Proof.lean ====
/- The proof of `Cert.Claim`: the fused low-rank projection kernel against its plain reference, on the extended reals.

   Both programs compute, for every row (b, s) of x: the projection down(b, s, ·) = x[b, s, ·] · A, its reciprocal
   root-mean-square scale(b, s) = rsqrt(Σ_j down² / 1536 + ε), the query row ((down · scale) · g) · B and the key-value
   row x[b, s, ·] · C (Proof/Spec.lean), and then the same tail: the head columns kept, and the rotary pairs rotated by
   the cosine and sine tables (Proof/TailOps.lean).
   * The kernel computes the two arrays 256 rows at a time over a 2 × 16 grid: one point's stores are the specification
     on its rows (Proof/KernelPayload.lean), the points' blocks tile the arrays (Proof/KernelArrays.lean), and the
     operations after the region are the tail functions (Proof/KernelTail.lean).
   * The reference computes them by whole-array contractions: its stages are the specification (Proof/RefIsSpec.lean)
     and its last stages the tail functions of those (Proof/RefTail.lean).
   A matrix product into a zero accumulator against a contraction, a lane sum against a reduction from 0, and a change of
   float format against nothing are the same function of the entries; no law of arithmetic beyond 0 + t = t is used, so
   the precondition is never opened. The three frames are the generated frame runs; the ideal pass rewrote nothing, so
   `preserves` is trivial. -/
import proofs.«123904_j41016937677183_1_alg».proof.Defs
import proofs.«123904_j41016937677183_1_alg».proof.Proof.Gen.Kernel
import proofs.«123904_j41016937677183_1_alg».proof.Proof.Gen.Kernel.Skeleton
import proofs.«123904_j41016937677183_1_alg».proof.Proof.Gen.Kernel.Launch
import proofs.«123904_j41016937677183_1_alg».proof.Proof.Gen.Kernel.Points
import proofs.«123904_j41016937677183_1_alg».proof.Proof.Gen.Kernel.Frame
import proofs.«123904_j41016937677183_1_alg».proof.Proof.Gen.KernelIdeal
import proofs.«123904_j41016937677183_1_alg».proof.Proof.Gen.KernelIdeal.Skeleton
import proofs.«123904_j41016937677183_1_alg».proof.Proof.Gen.KernelIdeal.Launch
import proofs.«123904_j41016937677183_1_alg».proof.Proof.Gen.KernelIdeal.Points
import proofs.«123904_j41016937677183_1_alg».proof.Proof.Gen.KernelIdeal.Frame
import proofs.«123904_j41016937677183_1_alg».proof.Proof.Gen.ReferenceIdeal
import proofs.«123904_j41016937677183_1_alg».proof.Proof.Gen.Pre_finite_inputs
import proofs.«123904_j41016937677183_1_alg».proof.Proof.Gen.ReferenceIdeal.Run
import proofs.«123904_j41016937677183_1_alg».proof.Proof.Gen.ReferenceIdeal.Read
import proofs.«123904_j41016937677183_1_alg».proof.Proof.KernelTail
import proofs.«123904_j41016937677183_1_alg».proof.Proof.RefIsSpec
import proofs.«123904_j41016937677183_1_alg».proof.Proof.RefTail
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The idealization rewrote no operation. -/
theorem preserves : Cert.preserves_Kernel_KernelIdeal := trivial

/-- From memories agreeing on the arguments both programs end with the tail functions of the specification's query and
    key-value arrays of those arguments. -/
theorem algebraic : Cert.algebraic_KernelIdeal_ReferenceIdeal := by
  intro m ρ m' ρ' _ hagree
  refine ⟨_, _, _, _, Cert.KernelTail.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  obtain ⟨r0, r1, r2, r3, rest⟩ := h c
  refine ⟨r0.trans ?_, r1.trans ?_, r2.trans ?_, r3.trans ?_, rest⟩
  · rw [Cert.ReferenceIdeal.Read.val_main_v16_eq, Cert.RefTail.ref_nope, Cert.RefIsSpec.query_eq, a0, a3, a4, a5]
  · rw [Cert.ReferenceIdeal.Read.val_main_v38_eq, Cert.RefTail.ref_ropeQ, Cert.RefIsSpec.query_eq, a0, a1, a2, a3, a4, a5]
  · rw [Cert.ReferenceIdeal.Read.val_main_v40_eq, Cert.RefTail.ref_kvLow, Cert.RefIsSpec.keyval_eq, a0, a6]
  · rw [Cert.ReferenceIdeal.Read.val_main_v63_eq, Cert.RefTail.ref_ropeK, Cert.RefIsSpec.keyval_eq, a0, a1, a2, a6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
